-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S768x2048 : Shape := ⟨2, ![768, 2048]⟩
abbrev S512x2048 : Shape := ⟨2, ![512, 2048]⟩
abbrev S64x2048 : Shape := ⟨2, ![64, 2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg4 : FVec F S64x2048 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64x2048 .f32 := Host.absf main_arg4
  let main_cst_6 : FVec F S_ .f32 := constant S_ .f32 0x7F800000#32
  let main_v20 : FVec F S64x2048 .f32 := broadcastInDim S64x2048 ![] bcast_S_S64x2048 main_cst_6
  let main_v21 : IVec S64x2048 1 := cmpf .olt main_v19 main_v20
  let main_c_7 : IVec S_ 1 := constantI S_ 1 1#1
  let main_v22 : IVec S_ 1 := (fun x v => Host.reduce IntOp.andi x v reducesTo_S64x2048_S_d0_1 h_S_) main_v21 main_c_7
  let main_v23 : IVec S_ 1 := andi main_v18 main_v22
  main_v23

def fn {F : FTy → Type} [FloatOps F] (main_arg0 : FVec F S4x8192x2048 .f32) (main_arg1 : FVec F S768x2048 .f32) (main_arg2 : FVec F S512x2048 .f32) (main_arg3 : FVec F S64x2048 .f32) (main_arg4 : FVec F S64x2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_v13 main_v16
-- ==== Kernel.lean ====
abbrev S4x8192x2048 : Shape := ⟨3, ![4, 8192, 2048]⟩
abbrev S768x2048 : Shape := ⟨2, ![768, 2048]⟩
abbrev S512x2048 : Shape := ⟨2, ![512, 2048]⟩
abbrev S64x2048 : Shape := ⟨2, ![64, 2048]⟩
abbrev S_ : Shape := ⟨0, ![]⟩
abbrev S2048 : Shape := ⟨1, ![2048]⟩
abbrev S2048x64 : Shape := ⟨2, ![2048, 64]⟩
abbrev S2048x63 : Shape := ⟨2, ![2048, 63]⟩
abbrev S2048x1 : Shape := ⟨2, ![2048, 1]⟩
abbrev S2048x256 : Shape := ⟨2, ![2048, 256]⟩
abbrev S4x8192x1 : Shape := ⟨3, ![4, 8192, 1]⟩
abbrev S1x2048x2048 : Shape := ⟨3, ![1, 2048, 2048]⟩
abbrev S1x2048x1 : Shape := ⟨3, ![1, 2048, 1]⟩
abbrev S1x2048x256 : Shape := ⟨3, ![1, 2048, 256]⟩
abbrev S256x256 : Shape := ⟨2, ![256, 256]⟩
abbrev S2048x128 : Shape := ⟨2, ![2048, 128]⟩

abbrev nBuf : Space → Nat
  | .hbm => 23
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S768x2048, .f32⟩
  | .hbm, ⟨2, _⟩ => ⟨S512x2048, .f32⟩
  | .hbm, ⟨3, _⟩ => ⟨S64x2048, .f32⟩
  | .hbm, ⟨4, _⟩ => ⟨S64x2048, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048x64, .f32⟩
  | .hbm, ⟨11, _⟩ => ⟨S2048x64, .f32⟩
  | .hbm, ⟨12, _⟩ => ⟨S_, .f32⟩
  | .hbm, ⟨13, _⟩ => ⟨S2048x64, .f32⟩
  | .hbm, ⟨14, _⟩ => ⟨S_, .f32⟩
  | .hbm, ⟨15, _⟩ => ⟨S2048x63, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S2048x1, .f32⟩
  | .hbm, ⟨20, _⟩ => ⟨S2048x256, .f32⟩
  | .hbm, ⟨21, _⟩ => ⟨S2048x256, .bf16⟩
  | .hbm, ⟨22, _⟩ => ⟨S4x8192x1, .f32⟩
  | .local _ .vmem, ⟨0, _⟩ => ⟨S1x2048x2048, .f32⟩
  | .local _ .vmem, ⟨1, _⟩ => ⟨S1x2048x2048, .f32⟩
  | .local _ .vmem, ⟨2, _⟩ => ⟨S2048x256, .bf16⟩
  | .local _ .vmem, ⟨3, _⟩ => ⟨S1x2048x1, .f32⟩
  | .local _ .vmem, ⟨4, _⟩ => ⟨S1x2048x1, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S768x2048_S2048_d0 : S768x2048.ReducesTo [0] S2048
  h_S_ : 0 < S_.numel
  reducesTo_S512x2048_S2048_d0 : S512x2048.ReducesTo [0] S2048
  transposes_S64x2048_S2048x64_1_0 : S64x2048.Transposes [1, 0] S2048x64
  bcast_S_S2048x64 : S_.BroadcastsInDim S2048x64 (![] : Fin 0 → Fin S2048x64.rank)
  bcast_S_S2048x63 : S_.BroadcastsInDim S2048x63 (![] : Fin 0 → Fin S2048x63.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x64_S2048x64_S2048x64_S2048x1_S2048x63_S2048x256_d1 : Shape.Concatenates [S2048x64, S2048x64, S2048x64, S2048x1, S2048x63] S2048x256 1
  bitsLt_bf16_f32 : FTy.bits .bf16 < FTy.bits .f32
  inb_S1x2048x2048_S1x2048x256_0_0_0 : ∀ a, (![0, 0, 0] : Fin 3 → Nat) a + S1x2048x256.size a ≤ S1x2048x2048.size a
  h_S1x2048x256 : 0 < S1x2048x256.numel
  shapeCasts_S1x2048x256_S2048x256 : S1x2048x256.ShapeCasts S2048x256
  inb_S2048x256_S256x256_0_0 : ∀ a, (![0, 0] : Fin 2 → Nat) a + S256x256.size a ≤ S2048x256.size a
  h_S256x256 : 0 < S256x256.numel
  shapeCasts_S256x256_S256x256 : S256x256.ShapeCasts S256x256
  inb_S1x2048x2048_S1x2048x256_0_0_256 : ∀ a, (![0, 0, 256] : Fin 3 → Nat) a + S1x2048x256.size a ≤ S1x2048x2048.size a
  inb_S2048x256_S256x256_256_0 : ∀ a, (![256, 0] : Fin 2 → Nat) a + S256x256.size a ≤ S2048x256.size a
  inb_S1x2048x2048_S1x2048x256_0_0_512 : ∀ a, (![0, 0, 512] : Fin 3 → Nat) a + S1x2048x256.size a ≤ S1x2048x2048.size a
  inb_S2048x256_S256x256_512_0 : ∀ a, (![512, 0] : Fin 2 → Nat) a + S256x256.size a ≤ S2048x256.size a
  inb_S1x2048x2048_S1x2048x256_0_0_768 : ∀ a, (![0, 0, 768] : Fin 3 → Nat) a + S1x2048x256.size a ≤ S1x2048x2048.size a
  inb_S2048x256_S256x256_768_0 : ∀ a, (![768, 0] : Fin 2 → Nat) a + S256x256.size a ≤ S2048x256.size a
  inb_S1x2048x2048_S1x2048x256_0_0_1024 : ∀ a, (![0, 0, 1024] : Fin 3 → Nat) a + S1x2048x256.size a ≤ S1x2048x2048.size a
  inb_S2048x256_S256x256_1024_0 : ∀ a, (![1024, 0] : Fin 2 → Nat) a + S256x256.size a ≤ S2048x256.size a
  inb_S1x2048x2048_S1x2048x256_0_0_1280 : ∀ a, (![0, 0, 1280] : Fin 3 → Nat) a + S1x2048x256.size a ≤ S1x2048x2048.size a
  inb_S2048x256_S256x256_1280_0 : ∀ a, (![1280, 0] : Fin 2 → Nat) a + S256x256.size a ≤ S2048x256.size a
  inb_S1x2048x2048_S1x2048x256_0_0_1536 : ∀ a, (![0, 0, 1536] : Fin 3 → Nat) a + S1x2048x256.size a ≤ S1x2048x2048.size a
  inb_S2048x256_S256x256_1536_0 : ∀ a, (![1536, 0] : Fin 2 → Nat) a + S256x256.size a ≤ S2048x256.size a
  inb_S1x2048x2048_S1x2048x256_0_0_1792 : ∀ a, (![0, 0, 1792] : Fin 3 → Nat) a + S1x2048x256.size a ≤ S1x2048x2048.size a
  inb_S2048x256_S256x256_1792_0 : ∀ a, (![1792, 0] : Fin 2 → Nat) a + S256x256.size a ≤ S2048x256.size a
  slices_S2048x256_o0_0_S2048x128 : S2048x256.Slices ![0, 0] S2048x128
  slices_S2048x256_o0_128_S2048x128 : S2048x256.Slices ![0, 128] S2048x128
  reduces_S2048x128_S2048 : S2048x128.Reduces [1] S2048
  shapeCasts_S2048_S2048x1 : S2048.ShapeCasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S4x8192x2048.size a
  hwx0_0 : ∀ i : grid0.Coords, EltTy.bits .f32 = 32 ∨ (Rect.block (s := S4x8192x2048) S1x2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S4x8192x1.size a
  hwx0_2 : ∀ i : grid0.Coords, EltTy.bits .f32 = 32 ∨ (Rect.block (s := S4x8192x1) S1x2048x1.size (cc0_transform_2 i) (hinb0_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S768x2048 : Shape := ⟨2, ![768, 2048]⟩
abbrev S512x2048 : Shape := ⟨2, ![512, 2048]⟩
abbrev S64x2048 : Shape := ⟨2, ![64, 2048]⟩
abbrev S4x8192x768 : Shape := ⟨3, ![4, 8192, 768]⟩
abbrev S4x8192x512 : Shape := ⟨3, ![4, 8192, 512]⟩
abbrev S4x8192x64x8 : Shape := ⟨4, ![4, 8192, 64, 8]⟩
abbrev S4x8192x64 : Shape := ⟨3, ![4, 8192, 64]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S768x2048, .f32⟩
  | .hbm, ⟨2, _⟩ => ⟨S512x2048, .f32⟩
  | .hbm, ⟨3, _⟩ => ⟨S64x2048, .f32⟩
  | .hbm, ⟨4, _⟩ => ⟨S64x2048, .f32⟩
  | .hbm, ⟨5, _⟩ => ⟨S4x8192x768, .f32⟩
  | .hbm, ⟨6, _⟩ => ⟨S4x8192x512, .f32⟩
  | .hbm, ⟨7, _⟩ => ⟨S4x8192x64x8, .f32⟩
  | .hbm, ⟨8, _⟩ => ⟨S4x8192x64, .f32⟩
  | .hbm, ⟨9, _⟩ => ⟨S4x8192x64, .f32⟩
  | .hbm, ⟨10, _⟩ => ⟨S4x8192x64, .f32⟩
  | .hbm, ⟨11, _⟩ => ⟨S_, .f32⟩
  | .hbm, ⟨12, _⟩ => ⟨S4x8192x64, .f32⟩
  | .hbm, ⟨13, _⟩ => ⟨S4x8192x64, .f32⟩
  | .hbm, ⟨14, _⟩ => ⟨S_, .f32⟩
  | .hbm, ⟨15, _⟩ => ⟨S4x8192x64, .f32⟩
  | .hbm, ⟨16, _⟩ => ⟨S4x8192x64, .f32⟩
  | .hbm, ⟨17, _⟩ => ⟨S4x8192x64, .f32⟩
  | .hbm, ⟨18, _⟩ => ⟨S4x8192x64, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x64, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S4x8192x1, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S4x8192x1, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  shapeCasts_S4x8192x512_S4x8192x64x8 : S4x8192x512.ShapeCasts S4x8192x64x8
  bcast_S_S4x8192x64 : S_.BroadcastsInDim S4x8192x64 (![] : Fin 0 → Fin S4x8192x64.rank)
  reducesTo_S4x8192x768_S4x8192_d2 : S4x8192x768.ReducesTo [2] S4x8192
  h_S_ : 0 < S_.numel
  bcast_S4x8192_S4x8192x1_0_1 : S4x8192.BroadcastsInDim S4x8192x1 (![0, 1] : Fin 2 → Fin S4x8192x1.rank)
  reducesTo_S4x8192x64x8_S4x8192x64_d3 : S4x8192x64x8.ReducesTo [3] S4x8192x64
  reducesTo_S4x8192x64_S4x8192_d2 : S4x8192x64.ReducesTo [2] S4x8192
  dot_S4x8192x2048_S768x2048_S4x8192x768_2_1_01_0_n_n_wf : DotDims.WF S4x8192x2048 S768x2048 S4x8192x768 [2] [1] [0, 1] [0] [] []
  dot_S4x8192x2048_S512x2048_S4x8192x512_2_1_01_0_n_n_wf : DotDims.WF S4x8192x2048 S512x2048 S4x8192x512 [2] [1] [0, 1] [0] [] []
  dot_S4x8192x2048_S64x2048_S4x8192x64_2_1_01_0_n_n_wf : DotDims.WF S4x8192x2048 S64x2048 S4x8192x64 [2] [1] [0, 1] [0] [] []

variable [Facts₀]

def dot_S4x8192x2048_S768x2048_S4x8192x768_2_1_01_0_n_n : DotDims S4x8192x2048 S768x2048 S4x8192x768 where
  lhsContracting := [2]
  rhsContracting := [1]
  lhsNonContracting := [0, 1]
  rhsNonContracting := [0]
  lhsBatch := []
  rhsBatch := []
  wf := dot_S4x8192x2048_S768x2048_S4x8192x768_2_1_01_0_n_n_wf
def dot_S4x8192x2048_S512x2048_S4x8192x512_2_1_01_0_n_n : DotDims S4x8192x2048 S512x2048 S4x8192x512 where
  lhsContracting := [2]
  rhsContracting := [1]
  lhsNonContracting := [0, 1]
  rhsNonContracting := [0]
  lhsBatch := []
  rhsBatch := []
  wf := dot_S4x8192x2048_S512x2048_S4x8192x512_2_1_01_0_n_n_wf
def dot_S4x8192x2048_S64x2048_S4x8192x64_2_1_01_0_n_n : DotDims S4x8192x2048 S64x2048 S4x8192x64 where
  lhsContracting := [2]
  rhsContracting := [1]
  lhsNonContracting := [0, 1]
  rhsNonContracting := [0]
  lhsBatch := []
  rhsBatch := []
  wf := dot_S4x8192x2048_S64x2048_S4x8192x64_2_1_01_0_n_n_wf

class Facts : Prop extends Facts₀ where

variable [Facts]
-- ==== Proof.BlockB.lean ====
/-
  What one grid point computes, as a function of the two blocks it is handed.

  The body reads its 2048 × 2048 block of x in eight column chunks of 256 and the fused 2048 × 256 weight in the
  eight matching row chunks, accumulates the eight partial products, gates the upper 128 columns by the logistic of
  the lower 128, sums each row and stores the resulting column over the whole output block. `rowGate` is that
  column from the two blocks, and `blockOut` the output buffer after the one store that covers it.
-/
import proofs.«109285_j59442347376718_2_alg».proof.Proof.Gen.Kernel.Skeleton
import Idealize.ShloMosaic.Lib.Pipeline.FrameBody

noncomputable section

namespace Cert.Kernel.Hand

open Idealize.ShloMosaic Idealize.ShloMosaic.TcCoe Idealize.SL.Sem
open Cert.Kernel Cert.Kernel.Gen

variable {F : FTy → Type} [FloatOps F]

/-! The body's literal rectangles: column chunk k of the x block, row chunk k of the weight, the whole output block. -/
abbrev rx0 : Rect S1x2048x2048 := Rect.unit (s := S1x2048x2048) ![0, 0, 0] S1x2048x256.size inb_S1x2048x2048_S1x2048x256_0_0_0
abbrev rx1 : Rect S1x2048x2048 := Rect.unit (s := S1x2048x2048) ![0, 0, 256] S1x2048x256.size inb_S1x2048x2048_S1x2048x256_0_0_256
abbrev rx2 : Rect S1x2048x2048 := Rect.unit (s := S1x2048x2048) ![0, 0, 512] S1x2048x256.size inb_S1x2048x2048_S1x2048x256_0_0_512
abbrev rx3 : Rect S1x2048x2048 := Rect.unit (s := S1x2048x2048) ![0, 0, 768] S1x2048x256.size inb_S1x2048x2048_S1x2048x256_0_0_768
abbrev rx4 : Rect S1x2048x2048 := Rect.unit (s := S1x2048x2048) ![0, 0, 1024] S1x2048x256.size inb_S1x2048x2048_S1x2048x256_0_0_1024
abbrev rx5 : Rect S1x2048x2048 := Rect.unit (s := S1x2048x2048) ![0, 0, 1280] S1x2048x256.size inb_S1x2048x2048_S1x2048x256_0_0_1280
abbrev rx6 : Rect S1x2048x2048 := Rect.unit (s := S1x2048x2048) ![0, 0, 1536] S1x2048x256.size inb_S1x2048x2048_S1x2048x256_0_0_1536
abbrev rx7 : Rect S1x2048x2048 := Rect.unit (s := S1x2048x2048) ![0, 0, 1792] S1x2048x256.size inb_S1x2048x2048_S1x2048x256_0_0_1792
abbrev rw0 : Rect S2048x256 := Rect.unit (s := S2048x256) ![0, 0] S256x256.size inb_S2048x256_S256x256_0_0
abbrev rw1 : Rect S2048x256 := Rect.unit (s := S2048x256) ![256, 0] S256x256.size inb_S2048x256_S256x256_256_0
abbrev rw2 : Rect S2048x256 := Rect.unit (s := S2048x256) ![512, 0] S256x256.size inb_S2048x256_S256x256_512_0
abbrev rw3 : Rect S2048x256 := Rect.unit (s := S2048x256) ![768, 0] S256x256.size inb_S2048x256_S256x256_768_0
abbrev rw4 : Rect S2048x256 := Rect.unit (s := S2048x256) ![1024, 0] S256x256.size inb_S2048x256_S256x256_1024_0
abbrev rw5 : Rect S2048x256 := Rect.unit (s := S2048x256) ![1280, 0] S256x256.size inb_S2048x256_S256x256_1280_0
abbrev rw6 : Rect S2048x256 := Rect.unit (s := S2048x256) ![1536, 0] S256x256.size inb_S2048x256_S256x256_1536_0
abbrev rw7 : Rect S2048x256 := Rect.unit (s := S2048x256) ![1792, 0] S256x256.size inb_S2048x256_S256x256_1792_0
abbrev ro : Rect S1x2048x1 := Rect.unit (s := S1x2048x1) ![0, 0, 0] S1x2048x1.size inb_S1x2048x1_S1x2048x1_0_0_0

/-- The column the body stores, from the x block and the weight block: the three payloads composed, each load a
    chunk of its block. -/
def rowGate (x0 : Vec F S1x2048x2048 .f32) (x1 : Vec F S2048x256 .bf16) : FVec F S1x2048x1 .f32 :=
  k0_pay1 (k0_pay3
    (k0_pay2 (View.ld x0 rx0) (View.ld x1 rw0) (View.ld x0 rx1) (View.ld x1 rw1) (View.ld x0 rx2) (View.ld x1 rw2)
      (View.ld x0 rx3) (View.ld x1 rw3))
    (View.ld x0 rx4) (View.ld x1 rw4) (View.ld x0 rx5) (View.ld x1 rw5) (View.ld x0 rx6) (View.ld x1 rw6)
    (View.ld x0 rx7) (View.ld x1 rw7))

/-- The output buffer after the body: its one store, over the whole block. -/
def blockOut (x0 : Vec F S1x2048x2048 .f32) (x1 : Vec F S2048x256 .bf16) : Vec F S1x2048x1 .f32 :=
  View.canon [⟨ro, rowGate x0 x1⟩]

end Cert.Kernel.Hand

end
-- ==== Proof.FrameB.lean ====
/-
  The frame of the program: it runs to the end, faults nowhere, and leaves its five argument arrays as they were.

  @main is seventeen host operations (they build the fused 2048 × 256 weight: two column sums added and doubled, two
  transposes, two zero pads, one concatenation, one change of format) and then one pipelined region over a 4 × 4
  grid. At point (i, j) the pipeline hands the body block (i, j) of x — rows 2048 j … 2048 j + 2047 of batch i, all
  2048 columns —, the whole fused weight (fetched once, at the first point), and an output buffer; the body reads the
  first two through literal rectangles and overwrites the third whole with `blockOut`. So the body's triple is one
  symbolic run, the proof data says each input buffer holds its block and the output buffer `blockOut` of the two
  blocks, and the library's launch theorem for one region after a stretch of host operations gives the run. None of
  the host operations writes an argument, and the region writes only its result, which gives the frame.
-/
import proofs.«109285_j59442347376718_2_alg».proof.Proof.Gen.Kernel.Launch
import proofs.«109285_j59442347376718_2_alg».proof.Proof.Gen.Kernel.Skeleton
import proofs.«109285_j59442347376718_2_alg».proof.Proof.Gen.Kernel.Points
import proofs.«109285_j59442347376718_2_alg».proof.Proof.BlockB
import Idealize.ShloMosaic.Lib.Pipeline.FrameBody
import Idealize.ShloMosaic.Lib.Ring
import Idealize.ShloMosaic.Lib.Tactic

-- membership in a rectangle of these extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the seventeen host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or the block index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or the block index has not moved since the last fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run whose post has every array of the pipeline at what the proof data computes and every other buffer as
    the region found it, the frame: x is an input window's array, which the pipeline only reads; the four weights are
    staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's triple -/

/-- The one store covers the output buffer. -/
theorem cover_out (p0 : Vec F S1x2048x1 .f32) (y : S1x2048x1.Idx) :
    ∃ pc ∈ ([⟨ro, p0⟩] : List (View.Piece (Elt F) S1x2048x1 .f32)), y ∈ pc.1.set :=
  View.cover_of_tiled [⟨ro, p0⟩] S1x2048x1.size (by rfl) y

set_option maxHeartbeats 1000000 in
/-- The body on whole staging buffers, the two inputs' at contents `x0`, `x1` and the output's at anything, runs to
    its end holding the inputs' as they were and the output's at `blockOut x0 x1`. -/
theorem sound_kernel (c : Dev nD) (E : Set ℕ) (i : grid0.Coords) (arg2 : Memref sig .tc .vmem S1x2048x2048 .f32) (harg2 : arg2.IsWhole) (arg3 : Memref sig .tc .vmem S2048x256 .bf16) (harg3 : arg3.IsWhole) (arg4 : Memref sig .tc .vmem S1x2048x1 .f32) (harg4 : arg4.IsWhole)
    (x0 : Vec F S1x2048x2048 .f32) (x1 : Vec F S2048x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (blockOut x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- On core `c`: the arrays as the region finds them; after the body at point `t` each input buffer at its block and
    the output buffer at `blockOut` of the two blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = blockOut (iblk m c 0 t) (iblk m c 1 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.BlockI.lean ====
/-
  What one grid point computes, as a function of the two blocks it is handed.

  The body reads its 2048 × 2048 block of x in eight column chunks of 256 and the fused 2048 × 256 weight in the
  eight matching row chunks, accumulates the eight partial products, gates the upper 128 columns by the logistic of
  the lower 128, sums each row and stores the resulting column over the whole output block. `rowGate` is that
  column from the two blocks, and `blockOut` the output buffer after the one store that covers it.
-/
import proofs.«109285_j59442347376718_2_alg».proof.Proof.Gen.KernelIdeal.Skeleton
import Idealize.ShloMosaic.Lib.Pipeline.FrameBody

noncomputable section

namespace Cert.KernelIdeal.Hand

open Idealize.ShloMosaic Idealize.ShloMosaic.TcCoe Idealize.SL.Sem
open Cert.KernelIdeal Cert.KernelIdeal.Gen

variable {F : FTy → Type} [FloatOps F]

/-! The body's literal rectangles: column chunk k of the x block, row chunk k of the weight, the whole output block. -/
abbrev rx0 : Rect S1x2048x2048 := Rect.unit (s := S1x2048x2048) ![0, 0, 0] S1x2048x256.size inb_S1x2048x2048_S1x2048x256_0_0_0
abbrev rx1 : Rect S1x2048x2048 := Rect.unit (s := S1x2048x2048) ![0, 0, 256] S1x2048x256.size inb_S1x2048x2048_S1x2048x256_0_0_256
abbrev rx2 : Rect S1x2048x2048 := Rect.unit (s := S1x2048x2048) ![0, 0, 512] S1x2048x256.size inb_S1x2048x2048_S1x2048x256_0_0_512
abbrev rx3 : Rect S1x2048x2048 := Rect.unit (s := S1x2048x2048) ![0, 0, 768] S1x2048x256.size inb_S1x2048x2048_S1x2048x256_0_0_768
abbrev rx4 : Rect S1x2048x2048 := Rect.unit (s := S1x2048x2048) ![0, 0, 1024] S1x2048x256.size inb_S1x2048x2048_S1x2048x256_0_0_1024
abbrev rx5 : Rect S1x2048x2048 := Rect.unit (s := S1x2048x2048) ![0, 0, 1280] S1x2048x256.size inb_S1x2048x2048_S1x2048x256_0_0_1280
abbrev rx6 : Rect S1x2048x2048 := Rect.unit (s := S1x2048x2048) ![0, 0, 1536] S1x2048x256.size inb_S1x2048x2048_S1x2048x256_0_0_1536
abbrev rx7 : Rect S1x2048x2048 := Rect.unit (s := S1x2048x2048) ![0, 0, 1792] S1x2048x256.size inb_S1x2048x2048_S1x2048x256_0_0_1792
abbrev rw0 : Rect S2048x256 := Rect.unit (s := S2048x256) ![0, 0] S256x256.size inb_S2048x256_S256x256_0_0
abbrev rw1 : Rect S2048x256 := Rect.unit (s := S2048x256) ![256, 0] S256x256.size inb_S2048x256_S256x256_256_0
abbrev rw2 : Rect S2048x256 := Rect.unit (s := S2048x256) ![512, 0] S256x256.size inb_S2048x256_S256x256_512_0
abbrev rw3 : Rect S2048x256 := Rect.unit (s := S2048x256) ![768, 0] S256x256.size inb_S2048x256_S256x256_768_0
abbrev rw4 : Rect S2048x256 := Rect.unit (s := S2048x256) ![1024, 0] S256x256.size inb_S2048x256_S256x256_1024_0
abbrev rw5 : Rect S2048x256 := Rect.unit (s := S2048x256) ![1280, 0] S256x256.size inb_S2048x256_S256x256_1280_0
abbrev rw6 : Rect S2048x256 := Rect.unit (s := S2048x256) ![1536, 0] S256x256.size inb_S2048x256_S256x256_1536_0
abbrev rw7 : Rect S2048x256 := Rect.unit (s := S2048x256) ![1792, 0] S256x256.size inb_S2048x256_S256x256_1792_0
abbrev ro : Rect S1x2048x1 := Rect.unit (s := S1x2048x1) ![0, 0, 0] S1x2048x1.size inb_S1x2048x1_S1x2048x1_0_0_0

/-- The column the body stores, from the x block and the weight block: the three payloads composed, each load a
    chunk of its block. -/
def rowGate (x0 : Vec F S1x2048x2048 .f32) (x1 : Vec F S2048x256 .bf16) : FVec F S1x2048x1 .f32 :=
  k0_pay1 (k0_pay3
    (k0_pay2 (View.ld x0 rx0) (View.ld x1 rw0) (View.ld x0 rx1) (View.ld x1 rw1) (View.ld x0 rx2) (View.ld x1 rw2)
      (View.ld x0 rx3) (View.ld x1 rw3))
    (View.ld x0 rx4) (View.ld x1 rw4) (View.ld x0 rx5) (View.ld x1 rw5) (View.ld x0 rx6) (View.ld x1 rw6)
    (View.ld x0 rx7) (View.ld x1 rw7))

/-- The output buffer after the body: its one store, over the whole block. -/
def blockOut (x0 : Vec F S1x2048x2048 .f32) (x1 : Vec F S2048x256 .bf16) : Vec F S1x2048x1 .f32 :=
  View.canon [⟨ro, rowGate x0 x1⟩]

end Cert.KernelIdeal.Hand

end
-- ==== Proof.FrameI.lean ====
/-
  The frame of the program: it runs to the end, faults nowhere, and leaves its five argument arrays as they were.

  @main is seventeen host operations (they build the fused 2048 × 256 weight: two column sums added and doubled, two
  transposes, two zero pads, one concatenation, one change of format) and then one pipelined region over a 4 × 4
  grid. At point (i, j) the pipeline hands the body block (i, j) of x — rows 2048 j … 2048 j + 2047 of batch i, all
  2048 columns —, the whole fused weight (fetched once, at the first point), and an output buffer; the body reads the
  first two through literal rectangles and overwrites the third whole with `blockOut`. So the body's triple is one
  symbolic run, the proof data says each input buffer holds its block and the output buffer `blockOut` of the two
  blocks, and the library's launch theorem for one region after a stretch of host operations gives the run. None of
  the host operations writes an argument, and the region writes only its result, which gives the frame.
-/
import proofs.«109285_j59442347376718_2_alg».proof.Proof.Gen.KernelIdeal.Launch
import proofs.«109285_j59442347376718_2_alg».proof.Proof.Gen.KernelIdeal.Skeleton
import proofs.«109285_j59442347376718_2_alg».proof.Proof.Gen.KernelIdeal.Points
import proofs.«109285_j59442347376718_2_alg».proof.Proof.BlockI
import Idealize.ShloMosaic.Lib.Pipeline.FrameBody
import Idealize.ShloMosaic.Lib.Ring
import Idealize.ShloMosaic.Lib.Tactic

-- membership in a rectangle of these extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the seventeen host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or the block index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or the block index has not moved since the last fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run whose post has every array of the pipeline at what the proof data computes and every other buffer as
    the region found it, the frame: x is an input window's array, which the pipeline only reads; the four weights are
    staged by no window and written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's triple -/

/-- The one store covers the output buffer. -/
theorem cover_out (p0 : Vec F S1x2048x1 .f32) (y : S1x2048x1.Idx) :
    ∃ pc ∈ ([⟨ro, p0⟩] : List (View.Piece (Elt F) S1x2048x1 .f32)), y ∈ pc.1.set :=
  View.cover_of_tiled [⟨ro, p0⟩] S1x2048x1.size (by rfl) y

set_option maxHeartbeats 1000000 in
/-- The body on whole staging buffers, the two inputs' at contents `x0`, `x1` and the output's at anything, runs to
    its end holding the inputs' as they were and the output's at `blockOut x0 x1`. -/
theorem sound_kernel (c : Dev nD) (E : Set ℕ) (i : grid0.Coords) (arg2 : Memref sig .tc .vmem S1x2048x2048 .f32) (harg2 : arg2.IsWhole) (arg3 : Memref sig .tc .vmem S2048x256 .bf16) (harg3 : arg3.IsWhole) (arg4 : Memref sig .tc .vmem S1x2048x1 .f32) (harg4 : arg4.IsWhole)
    (x0 : Vec F S1x2048x2048 .f32) (x1 : Vec F S2048x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (blockOut x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- On core `c`: the arrays as the region finds them; after the body at point `t` each input buffer at its block and
    the output buffer at `blockOut` of the two blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = blockOut (iblk m c 0 t) (iblk m c 1 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.Spec.lean ====
/-
  The mathematics of the gated row sum, free of any program text.

  For one row x (2048 entries) and four weight matrices the result is one number:
    the sum over the 768 rows d of w_qkv of ⟨x, w_qkv d⟩,
    plus the sum over the 64 heads j and the 8 positions e of ⟨x, w_z (8 j + e)⟩,
    plus the sum over the 64 heads j of ⟨x, w_a j⟩ · σ(⟨x, w_b j⟩),   σ t = 1 / (1 + exp (-t)).
  That is `refRow`.

  The same number can be had from ONE product of x with a fused 2048 × 256 weight matrix `fusedW`, whose columns are
    0 … 63    the rows of w_b,          64 … 127  zero,
    128 … 191 the rows of w_a,          192       twice the column sums of w_qkv and w_z added,
    193 … 255 zero,
  as the sum over the 128 lanes j of (x · column 128 + j) · σ(x · column j): `kerRow`. Lanes 0 … 63 give the gated
  terms; lane 64 gives twice the linear part times σ 0 = 1/2; the other lanes give 0 · σ 0 = 0. The two agree once
  every entry is a real number (the linear part is moved across a sum, which fails at the infinities).
-/
import Mathlib.Data.EReal.Operations
import Mathlib.Algebra.BigOperators.Fin
import Idealize.ShloMosaic.PureOps.Ideal

noncomputable section

namespace Cert.GatedRowSum

open Idealize.ShloMosaic

/-- The scalar product of a row with a weight row, on the extended reals. -/
def dot (x w : Fin 2048 → EReal) : EReal := ∑ h, x h * w h

/-- The reference's value for one row: the two linear projections summed out, plus the gated projection. -/
def refRow (x : Fin 2048 → EReal) (wq : Fin 768 → Fin 2048 → EReal) (wz : Fin 512 → Fin 2048 → EReal)
    (wb wa : Fin 64 → Fin 2048 → EReal) : EReal :=
  (∑ d, dot x (wq d)
      + ∑ j : Fin 64, ∑ e : Fin 8, dot x (wz ⟨8 * j.val + e.val, by have := j.isLt; have := e.isLt; omega⟩))
    + ∑ j, dot x (wa j) * Ideal.logistic (dot x (wb j))

/-- The fused weight matrix, entry (h, n): see the header for its five column ranges. -/
def fusedW (wq : Fin 768 → Fin 2048 → EReal) (wz : Fin 512 → Fin 2048 → EReal) (wb wa : Fin 64 → Fin 2048 → EReal)
    (h : Fin 2048) (n : Fin 256) : EReal :=
  if h1 : n.val < 64 then wb ⟨n.val, h1⟩ h
  else if n.val < 128 then 0
  else if h3 : n.val < 192 then wa ⟨n.val - 128, by omega⟩ h
  else if n.val = 192 then 2 * (∑ d, wq d h + ∑ d, wz d h)
  else 0

/-- The kernel's value for one row, from any 2048 × 256 weight matrix W: the lane sum of
    (x · column 128 + j) · σ(x · column j) over the 128 lanes. -/
def kerRow (x : Fin 2048 → EReal) (W : Fin 2048 → Fin 256 → EReal) : EReal :=
  ∑ j : Fin 128, (∑ h, x h * W h ⟨128 + j.val, by have := j.isLt; omega⟩)
    * Ideal.logistic (∑ h, x h * W h ⟨j.val, by have := j.isLt; omega⟩)

end Cert.GatedRowSum

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.LibRowLayouts.lean ====
/-
  Three re-layouts of a matrix read at an entry, for any element type.

  A [1, b] row broadcast to [a, b] reads, at (p, q), the row's entry q. An array [1, a, b] cast to the matrix
  [a, b] reads, at (p, q), the array at (0, p, q), and the cast back reads, at (0, p, q), the matrix at (p, q):
  a leading unit axis does not move the row-major position.
-/
import Idealize.ShloMosaic.Lib.ValueIdx
import Idealize.ShloMosaic.Lib.Pipeline.Value

noncomputable section

namespace LibRowLayouts

open Idealize.ShloMosaic Idealize.ShloMosaic.ValueIdx

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An array [1, a, b] cast to the matrix [a, b] reads, at (p, q), the array at (0, p, q). -/
theorem shapeCast_drop_unit_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) := by
  refine shapeCast_apply x h _ _ ?_
  rw [Shape.rowMajor_val_three, Shape.rowMajor_val_two]
  show (0 * a + p.val) * b + q.val = p.val * b + q.val
  rw [Nat.zero_mul, Nat.zero_add]

/-- A matrix [a, b] cast to the array [1, a, b] reads, at (0, p, q), the matrix at (p, q). -/
theorem shapeCast_add_unit_apply {α : Type} {a b : ℕ} (x : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ x h (ix3 z p q) = x (ix2 p q) := by
  refine shapeCast_apply x h _ _ ?_
  rw [Shape.rowMajor_val_three, Shape.rowMajor_val_two]
  show p.val * b + q.val = (z.val * a + p.val) * b + q.val
  have hz : z.val = 0 := by have := z.isLt; omega
  rw [hz, Nat.zero_mul, Nat.zero_add]

end LibRowLayouts

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.PayloadI.lean ====
/-
  The kernel's per-point arithmetic, read at one row of the stored column, at exact arithmetic.

  The body forms a 2048 × 256 accumulator: it starts from the zero matrix and adds, for k = 0 … 7, the product of
  column chunk k of its 2048 × 2048 block of x (columns 256 k … 256 k + 255) with row chunk k of the 2048 × 256
  weight (rows 256 k … 256 k + 255), each product taken into a zero accumulator of its own; the narrowing of the x
  chunk to sixteen bits is the identity on the extended reals. At entry (r, n) chunk k contributes the 256 terms
  x[r, 256 k + j] · W[256 k + j, n], so the eight partial sums, added onto zero in order, are the one sum over all 2048
  positions h of x[r, h] · W[h, n]: a finite sum in a commutative monoid may be taken in consecutive blocks, and no
  finiteness of the entries is needed.

  The body then takes columns 0 … 127 and 128 … 255 of the accumulator, multiplies the upper half by the logistic of
  the lower half, sums the 128 lanes of each row, and casts the resulting vector of 2048 row sums to a column and then
  to a [1, 2048, 1] array; both casts keep the row-major position, so the array at (0, r, 0) is the row sum of row r.
  Hence the stored column at (0, r, 0) is `kerRow` of row r of the block against the weight: `rowGate_apply`.
-/
import proofs.«109285_j59442347376718_2_alg».proof.Proof.BlockI
import proofs.«109285_j59442347376718_2_alg».proof.Proof.Spec
import proofs.«109285_j59442347376718_2_alg».proof.Proof.LibTileSums
import proofs.«109285_j59442347376718_2_alg».proof.Proof.LibRowLayouts
import proofs.«109285_j59442347376718_2_alg».proof.Proof.LibMatmulIdx
import proofs.«109285_j59442347376718_2_alg».proof.Proof.LibKeepdims
import Idealize.ShloMosaic.Lib.Pipeline.Value
import Idealize.ShloMosaic.PureOps.Ideal.Laws

noncomputable section

namespace Cert.KernelIdeal.Hand

open Idealize.ShloMosaic Idealize.ShloMosaic.ValueIdx Idealize.SL.Sem
open Cert.KernelIdeal Cert.KernelIdeal.Gen

variable {F : FTy → Type} [FloatOps F]

/-! The body's two repeated pieces, named: the product of one chunk pair, and the gate with its lane sum. -/

/-- The product of one [1, 2048, 256] chunk of x, cast to a matrix and narrowed, with one [256, 256] chunk of the
    weight, taken into the zero matrix. -/
def chunk (xc : Vec F S1x2048x256 .f32) (wc : Vec F S256x256 .bf16) : FVec F S2048x256 .f32 :=
  matmul dot_S2048x256_S256x256_S2048x256_1_0_0_1_n_n none
    (truncf .bf16 (shapeCast S2048x256 xc shapeCasts_S1x2048x256_S2048x256) bitsLt_bf16_f32)
    (shapeCast S256x256 wc shapeCasts_S256x256_S256x256) (constant S2048x256 .f32 0x00000000#32)

/-- The upper 128 columns of an accumulator times the logistic of its lower 128 columns, summed along each row, as
    a [2048, 1] column. -/
def gateTail (acc : FVec F S2048x256 .f32) : FVec F S2048x1 .f32 :=
  shapeCast S2048x1
    (multiReduction .add [1] S2048
      (mulf (extractStridedSlice S2048x128 ![0, 128] acc slices_S2048x256_o0_128_S2048x128)
        (logistic (extractStridedSlice S2048x128 ![0, 0] acc slices_S2048x256_o0_0_S2048x128)))
      0x00000000#32 reduces_S2048x128_S2048 (.inl rfl) rfl)
    shapeCasts_S2048_S2048x1

/-- The first payload is the zero matrix with four chunk products added in order. -/
theorem pay2_eq (v1 : Vec F S1x2048x256 .f32) (v4 : Vec F S256x256 .bf16) (v8 : Vec F S1x2048x256 .f32)
    (v11 : Vec F S256x256 .bf16) (v15 : Vec F S1x2048x256 .f32) (v18 : Vec F S256x256 .bf16)
    (v22 : Vec F S1x2048x256 .f32) (v25 : Vec F S256x256 .bf16) :
    k0_pay2 v1 v4 v8 v11 v15 v18 v22 v25
      = addf (addf (addf (addf (broadcast S2048x256 (Scalar.ofBits .f32 0x00000000#32)) (chunk v1 v4)) (chunk v8 v11))
          (chunk v15 v18)) (chunk v22 v25) := rfl

/-- The second payload adds four more chunk products and applies the gate and the lane sum. -/
theorem pay3_eq (v28 : FVec F S2048x256 .f32) (v29 : Vec F S1x2048x256 .f32) (v32 : Vec F S256x256 .bf16)
    (v36 : Vec F S1x2048x256 .f32) (v39 : Vec F S256x256 .bf16) (v43 : Vec F S1x2048x256 .f32)
    (v46 : Vec F S256x256 .bf16) (v50 : Vec F S1x2048x256 .f32) (v53 : Vec F S256x256 .bf16) :
    k0_pay3 v28 v29 v32 v36 v39 v43 v46 v50 v53
      = gateTail (addf (addf (addf (addf v28 (chunk v29 v32)) (chunk v36 v39)) (chunk v43 v46)) (chunk v50 v53)) := rfl

/-! The contraction record's operand indices: (row, contracted position) and (contracted position, column). -/

theorem dot_lhs0 (j : S2048x256.Idx) (k : dot_S2048x256_S256x256_S2048x256_1_0_0_1_n_n.contr.Idx) :
    (dot_S2048x256_S256x256_S2048x256_1_0_0_1_n_n.lhsIdx j k 0).val = (j 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

theorem dot_lhs1 (j : S2048x256.Idx) (k : dot_S2048x256_S256x256_S2048x256_1_0_0_1_n_n.contr.Idx) :
    (dot_S2048x256_S256x256_S2048x256_1_0_0_1_n_n.lhsIdx j k 1).val = (k ⟨0, by decide⟩).val :=
  dot_S2048x256_S256x256_S2048x256_1_0_0_1_n_n.lhsIdx_val_of_single rfl j k

theorem dot_rhs0 (j : S2048x256.Idx) (k : dot_S2048x256_S256x256_S2048x256_1_0_0_1_n_n.contr.Idx) :
    (dot_S2048x256_S256x256_S2048x256_1_0_0_1_n_n.rhsIdx j k 0).val = (k ⟨0, by decide⟩).val :=
  dot_S2048x256_S256x256_S2048x256_1_0_0_1_n_n.rhsIdx_val_of_single rfl j k

theorem dot_rhs1 (j : S2048x256.Idx) (k : dot_S2048x256_S256x256_S2048x256_1_0_0_1_n_n.contr.Idx) :
    (dot_S2048x256_S256x256_S2048x256_1_0_0_1_n_n.rhsIdx j k 1).val = (j 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- One chunk's product at entry (r, n): the sum over the chunk's 256 positions. -/
theorem chunk_apply (xc : Vec Ideal S1x2048x256 .f32) (wc : Vec Ideal S256x256 .bf16) (r : Fin 2048) (n : Fin 256) :
    chunk (F := Ideal) xc wc (ix2 r n) = ∑ k : Fin 256, xc (ix3 (0 : Fin 1) r k) * wc (ix2 k n) := by
  unfold chunk
  refine (LibMatmulIdx.matmul2_apply dot_S2048x256_S256x256_S2048x256_1_0_0_1_n_n rfl rfl dot_lhs0 dot_lhs1 dot_rhs0
    dot_rhs1 none _ _ (ix2 r n)).trans ?_
  refine Finset.sum_congr rfl fun k _ => ?_
  show shapeCast S2048x256 xc shapeCasts_S1x2048x256_S2048x256 (ix2 r k)
      * shapeCast S256x256 wc shapeCasts_S256x256_S256x256 (ix2 k n) = _
  rw [LibRowLayouts.shapeCast_drop_unit_apply, shapeCast_self]

/-! A load through a unit-stride rectangle reads the block at the rectangle's offset plus the index. -/

theorem ld_cols_apply (x0 : Vec Ideal S1x2048x2048 .f32) (o : ℕ)
    (inb : ∀ a, (![0, 0, o] : Fin 3 → Nat) a + S1x2048x256.size a ≤ S1x2048x2048.size a) (ho : o + 256 ≤ 2048)
    (r : Fin 2048) (k : Fin 256) :
    View.ld x0 (Rect.unit (s := S1x2048x2048) ![0, 0, o] S1x2048x256.size inb) (ix3 (0 : Fin 1) r k)
      = x0 (ix3 (0 : Fin 1) r ⟨o + k.val, by omega⟩) := by
  show x0 _ = x0 _
  refine congrArg x0 (funext fun a => Fin.ext ?_)
  match a with
  | ⟨0, _⟩ => rfl
  | ⟨1, _⟩ => show 0 + 1 * r.val = r.val; omega
  | ⟨2, _⟩ => show o + 1 * k.val = o + k.val; omega

theorem ld_rows_apply (x1 : Vec Ideal S2048x256 .bf16) (o : ℕ)
    (inb : ∀ a, (![o, 0] : Fin 2 → Nat) a + S256x256.size a ≤ S2048x256.size a) (ho : o + 256 ≤ 2048)
    (k : Fin 256) (n : Fin 256) :
    View.ld x1 (Rect.unit (s := S2048x256) ![o, 0] S256x256.size inb) (ix2 k n)
      = x1 (ix2 ⟨o + k.val, by omega⟩ n) := by
  show x1 _ = x1 _
  refine congrArg x1 (funext fun a => Fin.ext ?_)
  match a with
  | ⟨0, _⟩ => show o + 1 * k.val = o + k.val; omega
  | ⟨1, _⟩ => show 0 + 1 * n.val = n.val; omega

/-- The product of the row's entry at position i with the weight's entry (i, n), as a function of the natural number i
    (zero past the row's end): the term of the row's scalar product with column n. -/
def term (x0 : Vec Ideal S1x2048x2048 .f32) (x1 : Vec Ideal S2048x256 .bf16) (r : Fin 2048) (n : Fin 256) (i : ℕ) :
    EReal :=
  if h : i < 2048 then x0 (ix3 (0 : Fin 1) r ⟨i, h⟩) * x1 (ix2 ⟨i, h⟩ n) else 0

/-- The product of column chunk c of the row block with row chunk c of the weight, at entry (r, n): the 256 terms of
    the scalar product that lie in chunk c. -/
theorem chunk_ld_apply (x0 : Vec Ideal S1x2048x2048 .f32) (x1 : Vec Ideal S2048x256 .bf16) (c o : ℕ) (hc : o = 256 * c)
    (hlt : c < 8) (inbx : ∀ a, (![0, 0, o] : Fin 3 → Nat) a + S1x2048x256.size a ≤ S1x2048x2048.size a)
    (inbw : ∀ a, (![o, 0] : Fin 2 → Nat) a + S256x256.size a ≤ S2048x256.size a) (r : Fin 2048) (n : Fin 256) :
    chunk (F := Ideal) (View.ld x0 (Rect.unit (s := S1x2048x2048) ![0, 0, o] S1x2048x256.size inbx))
        (View.ld x1 (Rect.unit (s := S2048x256) ![o, 0] S256x256.size inbw)) (ix2 r n)
      = ∑ j : Fin 256, term x0 x1 r n (256 * c + j.val) := by
  subst hc
  refine (chunk_apply _ _ r n).trans (Finset.sum_congr rfl fun j _ => ?_)
  have h : 256 * c + j.val < 2048 := by have := j.isLt; omega
  refine (congrArg₂ (· * ·) (ld_cols_apply x0 _ inbx (by omega) r j) (ld_rows_apply x1 _ inbw (by omega) j n)).trans ?_
  unfold term
  rw [dif_pos h]

/-- The accumulator after the eight chunks. -/
def acc (x0 : Vec F S1x2048x2048 .f32) (x1 : Vec F S2048x256 .bf16) : FVec F S2048x256 .f32 :=
  addf (addf (addf (addf
    (k0_pay2 (View.ld x0 rx0) (View.ld x1 rw0) (View.ld x0 rx1) (View.ld x1 rw1) (View.ld x0 rx2) (View.ld x1 rw2)
      (View.ld x0 rx3) (View.ld x1 rw3))
    (chunk (View.ld x0 rx4) (View.ld x1 rw4))) (chunk (View.ld x0 rx5) (View.ld x1 rw5)))
    (chunk (View.ld x0 rx6) (View.ld x1 rw6))) (chunk (View.ld x0 rx7) (View.ld x1 rw7))

/-- The stored column is the last cast of the gated lane sum of the accumulator. -/
theorem rowGate_eq (x0 : Vec F S1x2048x2048 .f32) (x1 : Vec F S2048x256 .bf16) :
    rowGate x0 x1 = k0_pay1 (gateTail (acc x0 x1)) := rfl

/-- The accumulator at entry (r, n) is the whole scalar product of row r of the block with column n of the weight:
    eight partial sums over 256 consecutive positions, added onto zero in order, are the sum over all 2048. -/
theorem acc_apply (x0 : Vec Ideal S1x2048x2048 .f32) (x1 : Vec Ideal S2048x256 .bf16) (r : Fin 2048) (n : Fin 256) :
    acc (F := Ideal) x0 x1 (ix2 r n) = ∑ h : Fin 2048, x0 (ix3 (0 : Fin 1) r h) * x1 (ix2 h n) := by
  have h0 := chunk_ld_apply x0 x1 0 0 rfl (by omega) inb_S1x2048x2048_S1x2048x256_0_0_0 inb_S2048x256_S256x256_0_0 r n
  have h1 := chunk_ld_apply x0 x1 1 256 rfl (by omega) inb_S1x2048x2048_S1x2048x256_0_0_256 inb_S2048x256_S256x256_256_0 r n
  have h2 := chunk_ld_apply x0 x1 2 512 rfl (by omega) inb_S1x2048x2048_S1x2048x256_0_0_512 inb_S2048x256_S256x256_512_0 r n
  have h3 := chunk_ld_apply x0 x1 3 768 rfl (by omega) inb_S1x2048x2048_S1x2048x256_0_0_768 inb_S2048x256_S256x256_768_0 r n
  have h4 := chunk_ld_apply x0 x1 4 1024 rfl (by omega) inb_S1x2048x2048_S1x2048x256_0_0_1024 inb_S2048x256_S256x256_1024_0 r n
  have h5 := chunk_ld_apply x0 x1 5 1280 rfl (by omega) inb_S1x2048x2048_S1x2048x256_0_0_1280 inb_S2048x256_S256x256_1280_0 r n
  have h6 := chunk_ld_apply x0 x1 6 1536 rfl (by omega) inb_S1x2048x2048_S1x2048x256_0_0_1536 inb_S2048x256_S256x256_1536_0 r n
  have h7 := chunk_ld_apply x0 x1 7 1792 rfl (by omega) inb_S1x2048x2048_S1x2048x256_0_0_1792 inb_S2048x256_S256x256_1792_0 r n
  calc acc (F := Ideal) x0 x1 (ix2 r n)
      = 0 + chunk (F := Ideal) (View.ld x0 rx0) (View.ld x1 rw0) (ix2 r n)
          + chunk (F := Ideal) (View.ld x0 rx1) (View.ld x1 rw1) (ix2 r n)
          + chunk (F := Ideal) (View.ld x0 rx2) (View.ld x1 rw2) (ix2 r n)
          + chunk (F := Ideal) (View.ld x0 rx3) (View.ld x1 rw3) (ix2 r n)
          + chunk (F := Ideal) (View.ld x0 rx4) (View.ld x1 rw4) (ix2 r n)
          + chunk (F := Ideal) (View.ld x0 rx5) (View.ld x1 rw5) (ix2 r n)
          + chunk (F := Ideal) (View.ld x0 rx6) (View.ld x1 rw6) (ix2 r n)
          + chunk (F := Ideal) (View.ld x0 rx7) (View.ld x1 rw7) (ix2 r n) := by
        show Ideal.ofBits .f32 0x00000000#32 + _ + _ + _ + _ + _ + _ + _ + _ = _
        rw [Ideal.ofBits_zero_f32]
        rfl
    _ = ∑ c ∈ Finset.range 8, ∑ j : Fin 256, term x0 x1 r n (256 * c + j.val) := by
        rw [h0, h1, h2, h3, h4, h5, h6, h7]
        simp only [Finset.sum_range_succ, Finset.sum_range_zero]
    _ = ∑ i : Fin 2048, term x0 x1 r n i.val := (LibTileSums.sum_tiles 8 256 2048 rfl _).symm
    _ = ∑ h : Fin 2048, x0 (ix3 (0 : Fin 1) r h) * x1 (ix2 h n) := Finset.sum_congr rfl fun h _ => dif_pos h.isLt

/-- The gated lane sum of an accumulator, at row r: the sum over the 128 lanes j of the accumulator's entry in
    column 128 + j times the logistic of its entry in column j. -/
theorem gateTail_apply (a : FVec Ideal S2048x256 .f32) (r : Fin 2048) (z : Fin 1) :
    gateTail (F := Ideal) a (ix2 r z)
      = ∑ j : Fin 128, a (ix2 r ⟨128 + j.val, by have := j.isLt; omega⟩)
          * Ideal.logistic (a (ix2 r ⟨j.val, by have := j.isLt; omega⟩)) := by
  unfold gateTail
  refine (LibKeepdims.shapeCast_col_apply _ shapeCasts_S2048_S2048x1 r z).trans ?_
  refine (LibKeepdims.sum_axis1_apply _ 0x00000000#32 reduces_S2048x128_S2048 (.inl rfl) rfl r).trans ?_
  refine Finset.sum_congr rfl fun j _ => ?_
  show extractStridedSlice S2048x128 ![0, 128] a slices_S2048x256_o0_128_S2048x128 (ix2 r j)
      * Ideal.logistic (extractStridedSlice S2048x128 ![0, 0] a slices_S2048x256_o0_0_S2048x128 (ix2 r j)) = _
  have e1 : extractStridedSlice S2048x128 ![0, 128] a slices_S2048x256_o0_128_S2048x128 (ix2 r j)
      = a (ix2 r ⟨128 + j.val, by have := j.isLt; omega⟩) :=
    extractStridedSlice_apply ![0, 128] a slices_S2048x256_o0_128_S2048x128 (ix2 r j) _ fun b => by
      match b with
      | ⟨0, _⟩ => show r.val = 0 + r.val; omega
      | ⟨1, _⟩ => rfl
  have e2 : extractStridedSlice S2048x128 ![0, 0] a slices_S2048x256_o0_0_S2048x128 (ix2 r j)
      = a (ix2 r ⟨j.val, by have := j.isLt; omega⟩) :=
    extractStridedSlice_apply ![0, 0] a slices_S2048x256_o0_0_S2048x128 (ix2 r j) _ fun b => by
      match b with
      | ⟨0, _⟩ => show r.val = 0 + r.val; omega
      | ⟨1, _⟩ => show j.val = 0 + j.val; omega
  rw [e1, e2]

/-- What the body stores for row r of its block: the kernel's value for that row of x against the whole weight. -/
theorem rowGate_apply (x0 : Vec Ideal S1x2048x2048 .f32) (x1 : Vec Ideal S2048x256 .bf16) (r : Fin 2048) :
    rowGate (F := Ideal) x0 x1 (ix3 (0 : Fin 1) r (0 : Fin 1))
      = Cert.GatedRowSum.kerRow (fun h => x0 (ix3 (0 : Fin 1) r h)) (fun h n => x1 (ix2 h n)) := by
  rw [rowGate_eq]
  unfold k0_pay1
  refine (LibRowLayouts.shapeCast_add_unit_apply _ shapeCasts_S2048x1_S1x2048x1 (0 : Fin 1) r (0 : Fin 1)).trans ?_
  refine (gateTail_apply _ r (0 : Fin 1)).trans ?_
  unfold Cert.GatedRowSum.kerRow
  refine Finset.sum_congr rfl fun j _ => ?_
  rw [acc_apply, acc_apply]

end Cert.KernelIdeal.Hand

end
-- ==== Proof.ValueI.lean ====
/-
  The idealized kernel's result array, as one function of the arrays the region is handed.

  At grid point (i, j) the body is handed block (i, j) of x — batch i, rows 2048 j … 2048 j + 2047, every column —
  and the whole fused weight W, and writes back block (i, j) of the result: the column whose entry r is
  `kerRow` of row 2048 j + r of batch i against W. Row r of the x block IS that row of x (the block's coordinate on
  an axis is index × size + the coordinate inside the block), and the weight block is W itself (its index is (0, 0)).
  So what point t writes back is block t of the one function `gatedOf x W` of the whole arrays. The sixteen blocks
  tile the [4, 8192, 1] result, so after the run the result array is `gatedOf x W`.
-/
import proofs.«109285_j59442347376718_2_alg».proof.Proof.FrameI
import proofs.«109285_j59442347376718_2_alg».proof.Proof.PayloadI
import proofs.«109285_j59442347376718_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.GatedRowSum

variable (m : (ℓ : Loc nD τ sig) → Buf (Elt Ideal) ℓ) (ρ : Dev nD → PrngReg)

/-- The result array from the whole x and the whole fused weight: entry (b, s, ·) is `kerRow` of row (b, s) of x. -/
def gatedOf (X : S4x8192x2048.Idx → EReal) (W : S2048x256.Idx → EReal) : S4x8192x1.Idx → EReal :=
  fun i => kerRow (fun h => X (ix3 (i 0) (i 1) h)) (fun h n => W (ix2 h n))

theorem hz3 : (![0, 0, 0] : Fin 3 → Nat) = fun _ => 0 := funext fun a => by fin_cases a <;> rfl

/-- The printed index maps, decided over the sixteen points: the x block and the result block move together on the
    batch and row axes, the x block's column index and the weight block's two indices stay 0, and the result's block
    indices stay in their ranges. -/
theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = 0 ∧ win0_1.index t (1 : Fin 2) = 0
    ∧ win0_2.index t (2 : Fin 3) = 0
    ∧ win0_2.index t (0 : Fin 3) ≤ 3 ∧ win0_2.index t (1 : Fin 3) ≤ 3 :=
  (by decide +kernel : ∀ t : Fin grid0.N, _)

/-- Every block of the result is some point's. -/
theorem idx_onto : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

/-- Entry (0, r, h) of the x block at point t is x at (batch index, 2048 · row-block index + r, h). -/
theorem xblock_apply (c : Dev nD) (t : Fin cfg0.N) (r : Fin 2048) (h : Fin 2048) (k : S4x8192x2048.Idx)
    (hk0 : (k 0).val = win0_2.index t (0 : Fin 3)) (hk1 : (k 1).val = win0_2.index t (1 : Fin 3) * 2048 + r.val) (hk2 : (k 2).val = h.val) :
    (iblk m c 0 t : S1x2048x2048.Idx → EReal) (ix3 (0 : Fin 1) r h) = (V m c main_arg0 : S4x8192x2048.Idx → EReal) k := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = (k 0).val; rw [e0, hk0]; omega
  | ⟨1, _⟩ => show win0_0.index t (1 : Fin 3) * 2048 + 1 * r.val = (k 1).val; rw [e1, hk1]; omega
  | ⟨2, _⟩ => show win0_0.index t (2 : Fin 3) * 2048 + 1 * h.val = (k 2).val; rw [e2, hk2]; omega

/-- The weight block at any point is the whole fused weight. -/
theorem wblock_apply (c : Dev nD) (t : Fin cfg0.N) (h : Fin 2048) (n : Fin 256) :
    (iblk m c 1 t : S2048x256.Idx → EReal) (ix2 h n) = (V m c main_v11 : S2048x256.Idx → EReal) (ix2 h n) := by
  obtain ⟨-, -, -, e3, e4, -⟩ := idx_facts t
  unfold iblk
  rw [View.read_apply]
  show V m c main_v11 _ = V m c main_v11 _
  congr 1
  funext a
  apply Fin.ext
  match a with
  | ⟨0, _⟩ => show win0_1.index t (0 : Fin 2) * 2048 + 1 * h.val = h.val; rw [e3]; omega
  | ⟨1, _⟩ => show win0_1.index t (1 : Fin 2) * 256 + 1 * n.val = n.val; rw [e4]; omega

/-- What point t writes back is block t of `gatedOf` of the arrays as the region finds them. -/
theorem flushed_eq (c : Dev nD) (t : Fin cfg0.N) :
    (dats m 0 c).flushed 2 t = ((cfg0.win 2).blk t).view.read (Elt Ideal) (gatedOf (V m c main_arg0) (V m c main_v11)) := by
  show (cfg0.win 2).cut (grid0.coords t) ((dats m 0 c).after 2 t) = _
  rw [after_2]
  unfold blockOut
  rw [View.canon_unit_zero hz3]
  funext j
  obtain ⟨r, rfl⟩ : ∃ r : Fin 2048, j = ix3 (0 : Fin 1) r (0 : Fin 1) :=
    ⟨j 1, funext fun a => by
      have h0 : (j 0).val < 1 := (j 0).isLt
      have h2 : (j 2).val < 1 := (j 2).isLt
      match a with
      | ⟨0, _⟩ => exact Fin.ext (show (j 0).val = 0 by omega)
      | ⟨1, _⟩ => rfl
      | ⟨2, _⟩ => exact Fin.ext (show (j 2).val = 0 by omega)⟩
  obtain ⟨e0, e1, e2, e3, e4, e5, -⟩ := idx_facts t
  show rowGate (iblk m c 0 t) (iblk m c 1 t) (ix3 (0 : Fin 1) r (0 : Fin 1))
    = gatedOf (V m c main_arg0) (V m c main_v11) (((cfg0.win 2).blk t).view.emb (ix3 (0 : Fin 1) r (0 : Fin 1)))
  rw [rowGate_apply]
  unfold gatedOf
  congr 1
  · funext h
    refine xblock_apply m c t r h _ ?_ ?_ rfl
    · show (((cfg0.win 2).blk t).view.emb (ix3 (0 : Fin 1) r (0 : Fin 1)) 0).val = _
      show win0_2.index t (0 : Fin 3) * 1 + 1 * 0 = _
      omega
    · show (((cfg0.win 2).blk t).view.emb (ix3 (0 : Fin 1) r (0 : Fin 1)) 1).val = _
      show win0_2.index t (1 : Fin 3) * 2048 + 1 * r.val = _
      omega
  · funext h n
    exact wblock_apply m c t h n

/-- An index of the result is in point t's block iff each coordinate is in the block's range on its axis. -/
theorem mem_blk (t : Fin cfg0.N) (i : S4x8192x1.Idx) :
    i ∈ ((cfg0.win 2).blk t).view.set ↔ ∀ a : Fin 3, win0_2.index t a * S1x2048x1.size a ≤ (i a).val ∧ (i a).val < win0_2.index t a * S1x2048x1.size a + S1x2048x1.size a := by
  show i ∈ ((View.whole main_v12).slice (win0_2.rect t)).set ↔ _
  rw [View.set_slice_whole, Rect.mem_set_unit]
  exact Iff.rfl

/-- The sixteen blocks cover the result: entry (b, s, 0) lies in the block of point (b, s / 2048). -/
theorem covered (i : S4x8192x1.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 1 := (i 2).isLt
  obtain ⟨t, ht⟩ := idx_onto ⟨(i 0).val, hi0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 1 ≤ (i 2).val ∧ (i 2).val < win0_2.index t (2 : Fin 3) * 1 + 1; omega

/-- So the result array ends holding `gatedOf` of x and the fused weight as the region finds them. -/
theorem final_out (c : Dev nD) :
    (dats m 0 c).arrAt 2 cfg0.N = gatedOf (V m c main_arg0) (V m c main_v11) :=
  (dats m 0 c).arrAt_eq_of_cover 2 (gatedOf (V m c main_arg0) (V m c main_v11)) (fun t _ => flushed_eq m c t) covered

/-- The run, read: the result array at `gatedOf` of x as launched and of the fused weight the host operations built,
    the five arguments unchanged. -/
theorem run_ker : θ_run defs (onTc (τ := τ) (main (F := Ideal))) ⟨m, fun _ => 0, ρ⟩ fun r => ∀ c : Dev nD,
      r.2.mem ((c.tc : Thread nD τ).loc main_v12) = gatedOf (m ((c.tc : Thread nD τ).loc main_arg0)) (V m c main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 2).trans ((final_out m c).trans (by rw [V_main_arg0])),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Hand

end
-- ==== Proof.HostPrefixI.lean ====
/-
  The fused weight matrix the kernel's grid is handed.

  Before its one grid the program builds, on the host, a 2048 × 256 matrix out of the four weight arrays: the
  transpose of w_b (64 columns), 64 columns of zeros, the transpose of w_a (64 columns), one column holding twice the
  sum of the column sums of w_qkv and of w_z, and 63 columns of zeros, laid side by side; the result is then converted
  to the narrower float format, which at exact arithmetic changes nothing. This file reads that matrix entry by
  entry: entry (h, n) is the entry (h, n) of the fused weight of the specification, `fusedW`.

  The steps: what the buffer holds after the seventeen host operations, as one term over the argument arrays
  (`wcat_buf`); a five-piece concatenation along the columns read at (h, n), one lemma per piece; each piece read at
  an index (a transpose, a broadcast zero, the column of doubled sums); and the case split on the column n that
  matches the five column ranges of `fusedW` (`wcat_apply`).
-/
import proofs.«109285_j59442347376718_2_alg».proof.Proof.Gen.KernelIdeal.Launch
import proofs.«109285_j59442347376718_2_alg».proof.Proof.Spec
import Idealize.ShloMosaic.Lib.IdealHost
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Hand

open Idealize.ShloMosaic Idealize.ShloMosaic.TcCoe Idealize.SL.Sem Idealize.ShloMosaic.ValueIdx
open Cert.KernelIdeal Cert.KernelIdeal.Gen

namespace HostPrefix

/-! ## An operation with five operands: its result, each operand's contents at its own reference -/

section FiveOperands
variable {τ' : Topo} {sig' : RefSig} {Val : EltTy → Type} {x a b c e y : Ref sig' .tc}

/-- The result buffer of a five-operand operation holds its function of the five operands' contents. -/
theorem nary5_result
    (f : ((k : Fin 5) → ((![x, a, b, c, e] : Fin 5 → Ref sig' .tc) k).ty.Contents Val) → y.ty.Contents Val) (hxs hy)
    (G : Valuation τ' sig' Val) :
    (StableHlo.nary (τ := τ') ![x, a, b, c, e] y f hxs hy).result G (Proc.devRef .tc y)
      = f (Fin.cons (G (Proc.devRef .tc x)) (Fin.cons (G (Proc.devRef .tc a)) (Fin.cons (G (Proc.devRef .tc b))
          (Fin.cons (G (Proc.devRef .tc c)) (Fin.cons (G (Proc.devRef .tc e)) (fun i => i.elim0)))))) := by
  rw [StableHlo.nary_result]; congr 1; funext k; fin_cases k <;> rfl

end FiveOperands

/-! ## The five-piece concatenation along the columns, read at (h, n) -/

section Cat5
variable {α : Type} (p0 p1 p2 : S2048x64.Idx → α) (p3 : S2048x1.Idx → α) (p4 : S2048x63.Idx → α)
  (hc : Shape.Concatenates [S2048x64, S2048x64, S2048x64, S2048x1, S2048x63] S2048x256 1)

/-- Columns 0 … 63 read the first piece. -/
theorem cat5_first (h : Fin 2048) (n : Fin 256) (hn : n.val < 64) :
    concatenate S2048x256 1 [⟨S2048x64, p0⟩, ⟨S2048x64, p1⟩, ⟨S2048x64, p2⟩, ⟨S2048x1, p3⟩, ⟨S2048x63, p4⟩] hc (ix2 h n)
      = p0 (ix2 h ⟨n.val, hn⟩) :=
  concatenate_apply_piece 1 [⟨S2048x64, p0⟩, ⟨S2048x64, p1⟩, ⟨S2048x64, p2⟩, ⟨S2048x1, p3⟩, ⟨S2048x63, p4⟩] hc (ix2 h n) 0 (by simp) S2048x64 p0 rfl rfl 0 rfl (ix2 h ⟨n.val, hn⟩)
    (fun b hb => match b, hb with | ⟨0, _⟩, _ => rfl | ⟨1, _⟩, hb => absurd rfl hb)
    (by show 0 + n.val = n.val; omega)

/-- Columns 64 … 127 read the second piece, 64 columns to the left. -/
theorem cat5_second (h : Fin 2048) (n : Fin 256) (h1 : 64 ≤ n.val) (h2 : n.val < 128) :
    concatenate S2048x256 1 [⟨S2048x64, p0⟩, ⟨S2048x64, p1⟩, ⟨S2048x64, p2⟩, ⟨S2048x1, p3⟩, ⟨S2048x63, p4⟩] hc (ix2 h n)
      = p1 (ix2 h ⟨n.val - 64, by omega⟩) :=
  concatenate_apply_piece 1 [⟨S2048x64, p0⟩, ⟨S2048x64, p1⟩, ⟨S2048x64, p2⟩, ⟨S2048x1, p3⟩, ⟨S2048x63, p4⟩] hc (ix2 h n) 1 (by simp) S2048x64 p1 rfl rfl 64 rfl (ix2 h ⟨n.val - 64, by omega⟩)
    (fun b hb => match b, hb with | ⟨0, _⟩, _ => rfl | ⟨1, _⟩, hb => absurd rfl hb)
    (by show 64 + (n.val - 64) = n.val; omega)

/-- Columns 128 … 191 read the third piece, 128 columns to the left. -/
theorem cat5_third (h : Fin 2048) (n : Fin 256) (h1 : 128 ≤ n.val) (h2 : n.val < 192) :
    concatenate S2048x256 1 [⟨S2048x64, p0⟩, ⟨S2048x64, p1⟩, ⟨S2048x64, p2⟩, ⟨S2048x1, p3⟩, ⟨S2048x63, p4⟩] hc (ix2 h n)
      = p2 (ix2 h ⟨n.val - 128, by omega⟩) :=
  concatenate_apply_piece 1 [⟨S2048x64, p0⟩, ⟨S2048x64, p1⟩, ⟨S2048x64, p2⟩, ⟨S2048x1, p3⟩, ⟨S2048x63, p4⟩] hc (ix2 h n) 2 (by simp) S2048x64 p2 rfl rfl 128 rfl (ix2 h ⟨n.val - 128, by omega⟩)
    (fun b hb => match b, hb with | ⟨0, _⟩, _ => rfl | ⟨1, _⟩, hb => absurd rfl hb)
    (by show 128 + (n.val - 128) = n.val; omega)

/-- Column 192 reads the one-column fourth piece. -/
theorem cat5_fourth (h : Fin 2048) (n : Fin 256) (h1 : n.val = 192) :
    concatenate S2048x256 1 [⟨S2048x64, p0⟩, ⟨S2048x64, p1⟩, ⟨S2048x64, p2⟩, ⟨S2048x1, p3⟩, ⟨S2048x63, p4⟩] hc (ix2 h n)
      = p3 (ix2 h (0 : Fin 1)) :=
  concatenate_apply_piece 1 [⟨S2048x64, p0⟩, ⟨S2048x64, p1⟩, ⟨S2048x64, p2⟩, ⟨S2048x1, p3⟩, ⟨S2048x63, p4⟩] hc (ix2 h n) 3 (by simp) S2048x1 p3 rfl rfl 192 rfl (ix2 h (0 : Fin 1))
    (fun b hb => match b, hb with | ⟨0, _⟩, _ => rfl | ⟨1, _⟩, hb => absurd rfl hb)
    (by show 192 + 0 = n.val; omega)

/-- Columns 193 … 255 read the fifth piece, 193 columns to the left. -/
theorem cat5_fifth (h : Fin 2048) (n : Fin 256) (h1 : 193 ≤ n.val) :
    concatenate S2048x256 1 [⟨S2048x64, p0⟩, ⟨S2048x64, p1⟩, ⟨S2048x64, p2⟩, ⟨S2048x1, p3⟩, ⟨S2048x63, p4⟩] hc (ix2 h n)
      = p4 (ix2 h ⟨n.val - 193, by have := n.isLt; omega⟩) :=
  concatenate_apply_piece 1 [⟨S2048x64, p0⟩, ⟨S2048x64, p1⟩, ⟨S2048x64, p2⟩, ⟨S2048x1, p3⟩, ⟨S2048x63, p4⟩] hc (ix2 h n) 4 (by simp) S2048x63 p4 rfl rfl 193 rfl
    (ix2 h ⟨n.val - 193, by have := n.isLt; omega⟩)
    (fun b hb => match b, hb with | ⟨0, _⟩, _ => rfl | ⟨1, _⟩, hb => absurd rfl hb)
    (by show 193 + (n.val - 193) = n.val; omega)

end Cat5

/-! ## The pieces read at an index -/

/-- The word 0x40000000 denotes the real number 2. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The scalar zero broadcast to any shape reads 0 everywhere. -/
theorem zeros_apply {T : Shape} (hb : S_.BroadcastsInDim T ![]) (j : T.Idx) :
    broadcastInDim T ![] hb (constant (F := Ideal) S_ .f32 0x00000000#32) j = (0 : EReal) :=
  (broadcastInDim_scalar_apply hb _ j).trans Ideal.ofBits_zero_f32

/-- A vector of length 2048 broadcast along axis 0 into the [2048, 1] column, read at (r, z): the vector at r. -/
theorem col_apply {α : Type} (v : S2048.Idx → α) (hb : S2048.BroadcastsInDim S2048x1 ![0]) (r : Fin 2048) (z : Fin 1) :
    broadcastInDim S2048x1 ![0] hb v (ix2 r z) = v (ix1 r) :=
  broadcastInDim_apply ![0] hb v (ix2 r z) (ix1 r) fun a => match a with | ⟨0, _⟩ => rfl

/-- The host's sum over the rows of an [A, 2048] matrix, started from the zero word, at column h: the sum over d of
    the entry (d, h). -/
theorem colsum_apply {A : ℕ} (x : FVec Ideal ⟨2, ![A, 2048]⟩ .f32)
    (hr' : (⟨2, ![A, 2048]⟩ : Shape).ReducesTo [0] S2048) (hr : (⟨2, ![A, 2048]⟩ : Shape).Reduces [0] S2048)
    (hu : 0 < S_.numel) (h : Fin 2048) :
    Host.reduceAdd x (constant (F := Ideal) S_ .f32 0x00000000#32) hr' hu (ix1 h) = ∑ d : Fin A, x (ix2 d h) := by
  refine (Ideal.hostReduceAdd_single hr' hr x _ (ix1 h)).trans ?_
  rw [show (constant (F := Ideal) S_ .f32 0x00000000#32) (Shape.Idx.first hu) = (0 : EReal) from Ideal.ofBits_zero_f32, zero_add]
  show ∑ k : Fin A, x (hr.lift (ix1 h) k) = _
  refine Finset.sum_congr rfl fun k _ => congrArg x ?_
  funext d
  match d with
  | ⟨0, _⟩ => exact Fin.ext rfl
  | ⟨1, _⟩ => exact Fin.ext rfl

/-- Summing out the 768 rows of a [768, 2048] matrix leaves a vector of length 2048. -/
theorem reduces_S768x2048_S2048 : S768x2048.Reduces [0] S2048 := by decide
/-- Summing out the 512 rows of a [512, 2048] matrix leaves a vector of length 2048. -/
theorem reduces_S512x2048_S2048 : S512x2048.Reduces [0] S2048 := by decide

end HostPrefix

open HostPrefix

/-! ## The weight buffer after the host operations -/

/-- Rewrites the contents of one buffer after a line of host operations: at the operation that writes the buffer, its
    function of its operands' contents; at any other operation, what was there before. -/
local macro "host_results" : tactic =>
  `(tactic| repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide)
    | (rw [StableHlo.nary_result_ne]; rotate_left; decide)))

variable (m : (ℓ : Loc nD τ sig) → Buf (Elt Ideal) ℓ) (c : Dev nD)

/-- What the weight buffer holds when the grid is entered, as one term over the four weight arrays. -/
theorem wcat_buf :
    (StableHlo.after (hostOps0 (F := Ideal)) (fun b => m (c, b)) (Proc.devRef .tc main_v11) : S2048x256.Idx → EReal)
      = truncf .bf16 (concatenate S2048x256 1
          [⟨S2048x64, transpose S2048x64 [1, 0] (m (c, Proc.devRef .tc main_arg3)) transposes_S64x2048_S2048x64_1_0⟩,
           ⟨S2048x64, broadcastInDim S2048x64 ![] bcast_S_S2048x64 (constant (F := Ideal) S_ .f32 0x00000000#32)⟩,
           ⟨S2048x64, transpose S2048x64 [1, 0] (m (c, Proc.devRef .tc main_arg4)) transposes_S64x2048_S2048x64_1_0⟩,
           ⟨S2048x1, broadcastInDim S2048x1 ![0] bcast_S2048_S2048x1_0
            (mulf (broadcastInDim S2048 ![] bcast_S_S2048 (constant (F := Ideal) S_ .f32 0x40000000#32))
              (addf (Host.reduceAdd (m (c, Proc.devRef .tc main_arg1)) (constant (F := Ideal) S_ .f32 0x00000000#32) reducesTo_S768x2048_S2048_d0 h_S_)
                (Host.reduceAdd (m (c, Proc.devRef .tc main_arg2)) (constant (F := Ideal) S_ .f32 0x00000000#32) reducesTo_S512x2048_S2048_d0 h_S_)))⟩,
           ⟨S2048x63, broadcastInDim S2048x63 ![] bcast_S_S2048x63 (constant (F := Ideal) S_ .f32 0x00000000#32)⟩]
          concatenates_S2048x64_S2048x64_S2048x64_S2048x1_S2048x63_S2048x256_d1) bitsLt_bf16_f32 := by
  dsimp only [hostOps0]
  simp only [StableHlo.after_cons, StableHlo.after_nil]
  generalize hR : (StableHlo.unary main_v8 main_v9 _ _ _).result _ = R
  have e3 : R (Proc.devRef .tc main_v3) = transpose S2048x64 [1, 0] (m (c, Proc.devRef .tc main_arg3)) transposes_S64x2048_S2048x64_1_0 := by
    rw [← hR]; host_results
  have e5 : R (Proc.devRef .tc main_v5) = broadcastInDim S2048x64 ![] bcast_S_S2048x64 (constant (F := Ideal) S_ .f32 0x00000000#32) := by
    rw [← hR]; host_results
  have e4 : R (Proc.devRef .tc main_v4) = transpose S2048x64 [1, 0] (m (c, Proc.devRef .tc main_arg4)) transposes_S64x2048_S2048x64_1_0 := by
    rw [← hR]; host_results
  have e9 : R (Proc.devRef .tc main_v9) = broadcastInDim S2048x1 ![0] bcast_S2048_S2048x1_0
            (mulf (broadcastInDim S2048 ![] bcast_S_S2048 (constant (F := Ideal) S_ .f32 0x40000000#32))
              (addf (Host.reduceAdd (m (c, Proc.devRef .tc main_arg1)) (constant (F := Ideal) S_ .f32 0x00000000#32) reducesTo_S768x2048_S2048_d0 h_S_)
                (Host.reduceAdd (m (c, Proc.devRef .tc main_arg2)) (constant (F := Ideal) S_ .f32 0x00000000#32) reducesTo_S512x2048_S2048_d0 h_S_))) := by
    rw [← hR]; host_results
  have e6 : R (Proc.devRef .tc main_v6) = broadcastInDim S2048x63 ![] bcast_S_S2048x63 (constant (F := Ideal) S_ .f32 0x00000000#32) := by
    rw [← hR]; host_results
  rw [StableHlo.unary_result, nary5_result]
  show truncf (F := Ideal) .bf16 (concatenate (α := Ideal .f32) S2048x256 1
      [⟨S2048x64, R (Proc.devRef .tc main_v3)⟩, ⟨S2048x64, R (Proc.devRef .tc main_v5)⟩,
       ⟨S2048x64, R (Proc.devRef .tc main_v4)⟩, ⟨S2048x1, R (Proc.devRef .tc main_v9)⟩,
       ⟨S2048x63, R (Proc.devRef .tc main_v6)⟩] concatenates_S2048x64_S2048x64_S2048x64_S2048x1_S2048x63_S2048x256_d1) bitsLt_bf16_f32 = _
  rw [e3, e5, e4, e9, e6]

/-! ## The weight buffer entry by entry -/

/-- Entry (h, n) of the weight buffer is entry (h, n) of the specification's fused weight. -/
theorem wcat_apply (h : Fin 2048) (n : Fin 256) :
    (StableHlo.after (hostOps0 (F := Ideal)) (fun b => m (c, b)) (Proc.devRef .tc main_v11) : S2048x256.Idx → EReal) (ix2 h n)
      = Cert.GatedRowSum.fusedW
          (fun d k => (m ((c : Thread nD τ).loc main_arg1) : S768x2048.Idx → EReal) (ix2 d k))
          (fun d k => (m ((c : Thread nD τ).loc main_arg2) : S512x2048.Idx → EReal) (ix2 d k))
          (fun j k => (m ((c : Thread nD τ).loc main_arg3) : S64x2048.Idx → EReal) (ix2 j k))
          (fun j k => (m ((c : Thread nD τ).loc main_arg4) : S64x2048.Idx → EReal) (ix2 j k)) h n := by
  rw [wcat_buf]
  rw [truncf_apply]
  unfold Cert.GatedRowSum.fusedW
  by_cases h1 : n.val < 64
  · rw [dif_pos h1]
    refine (cat5_first _ _ _ _ _ _ h n h1).trans ?_
    exact transpose_ix2_apply _ _ _ _
  · rw [dif_neg h1]
    by_cases h2 : n.val < 128
    · rw [if_pos h2]
      refine (cat5_second _ _ _ _ _ _ h n (by omega) h2).trans ?_
      exact zeros_apply _ _
    · rw [if_neg h2]
      by_cases h3 : n.val < 192
      · rw [dif_pos h3]
        refine (cat5_third _ _ _ _ _ _ h n (by omega) h3).trans ?_
        exact transpose_ix2_apply _ _ _ _
      · rw [dif_neg h3]
        by_cases h4 : n.val = 192
        · rw [if_pos h4]
          refine (cat5_fourth _ _ _ _ _ _ h n h4).trans ?_
          rw [col_apply, mulf_apply, broadcastInDim_scalar_apply, constant_apply, ofBits_two_f32, addf_apply,
            colsum_apply _ _ reduces_S768x2048_S2048, colsum_apply _ _ reduces_S512x2048_S2048]
        · rw [if_neg h4]
          refine (cat5_fifth _ _ _ _ _ _ h n (by omega)).trans ?_
          exact zeros_apply _ _

end Cert.KernelIdeal.Hand
end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.FiniteI.lean ====
/-
  Every entry of the five argument arrays is a real number.

  The precondition says that the conjunction, over the five arrays x, w_qkv, w_z, w_b, w_a, of "every entry has
  absolute value below +∞" is true on every device. On the extended reals |t| < +∞ holds exactly when t is neither
  infinity, that is, when t is the image of the real number t.toReal. So each of the five arrays is the image of its
  real parts (`real_of_pre`), and in particular no entry is +∞ or -∞ (`finite_of_pre`).
-/
import proofs.«109285_j59442347376718_2_alg».proof.Defs
import proofs.«109285_j59442347376718_2_alg».proof.Proof.LibFiniteEntries
import proofs.«109285_j59442347376718_2_alg».proof.Proof.LibERealMatrix
import Idealize.ShloMosaic.Lib.IdealHost
import Idealize.ShloMosaic.Lib.Affine

noncomputable section

namespace Cert.KernelIdeal.Hand

open Idealize.ShloMosaic Idealize.SL.Sem Idealize.ShloMosaic.ValueIdx
open Cert.KernelIdeal

/-- An array that is the image of real numbers has no infinite entry. -/
theorem finite_of_real {ι : Type} {x : ι → EReal} (hx : x = fun i => (((x i).toReal : ℝ) : EReal)) (i : ι) :
    LibERealMatrix.Fin' (x i) := by
  rw [congrFun hx i]
  exact LibERealMatrix.Fin'.coe _

/-- Under the precondition each argument array is the image of its real parts. -/
theorem real_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ((m ((c.tc : Thread nD τ).loc main_arg0) : S4x8192x2048.Idx → EReal)
        = fun i => ((((m ((c.tc : Thread nD τ).loc main_arg0) : S4x8192x2048.Idx → EReal) i).toReal : ℝ) : EReal))
    ∧ ((m ((c.tc : Thread nD τ).loc main_arg1) : S768x2048.Idx → EReal)
        = fun i => ((((m ((c.tc : Thread nD τ).loc main_arg1) : S768x2048.Idx → EReal) i).toReal : ℝ) : EReal))
    ∧ ((m ((c.tc : Thread nD τ).loc main_arg2) : S512x2048.Idx → EReal)
        = fun i => ((((m ((c.tc : Thread nD τ).loc main_arg2) : S512x2048.Idx → EReal) i).toReal : ℝ) : EReal))
    ∧ ((m ((c.tc : Thread nD τ).loc main_arg3) : S64x2048.Idx → EReal)
        = fun i => ((((m ((c.tc : Thread nD τ).loc main_arg3) : S64x2048.Idx → EReal) i).toReal : ℝ) : EReal))
    ∧ ((m ((c.tc : Thread nD τ).loc main_arg4) : S64x2048.Idx → EReal)
        = fun i => ((((m ((c.tc : Thread nD τ).loc main_arg4) : S64x2048.Idx → EReal) i).toReal : ℝ) : EReal)) := by
  have h := congrFun (hpre c) ix0
  dsimp only [Cert.Pre_finite_inputs.fn, Cert.Pre_finite_inputs.fn_part1] at h
  obtain ⟨h0123, h4⟩ := IntOp.andi_eq_one.mp h
  obtain ⟨h012, h3⟩ := IntOp.andi_eq_one.mp h0123
  obtain ⟨h01, h2⟩ := IntOp.andi_eq_one.mp h012
  obtain ⟨h0, h1⟩ := IntOp.andi_eq_one.mp h01
  exact ⟨LibFiniteEntries.real_of_all_abs_lt _ _ (fun i => broadcastInDim_scalar_apply _ _ i) _ _ _ ix0 h0,
    LibFiniteEntries.real_of_all_abs_lt _ _ (fun i => broadcastInDim_scalar_apply _ _ i) _ _ _ ix0 h1,
    LibFiniteEntries.real_of_all_abs_lt _ _ (fun i => broadcastInDim_scalar_apply _ _ i) _ _ _ ix0 h2,
    LibFiniteEntries.real_of_all_abs_lt _ _ (fun i => broadcastInDim_scalar_apply _ _ i) _ _ _ ix0 h3,
    LibFiniteEntries.real_of_all_abs_lt _ _ (fun i => broadcastInDim_scalar_apply _ _ i) _ _ _ ix0 h4⟩

/-- Under the precondition no entry of an argument array is +∞ or -∞. -/
theorem finite_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : S4x8192x2048.Idx, LibERealMatrix.Fin' (m ((c.tc : Thread nD τ).loc main_arg0) i))
    ∧ (∀ i : S768x2048.Idx, LibERealMatrix.Fin' (m ((c.tc : Thread nD τ).loc main_arg1) i))
    ∧ (∀ i : S512x2048.Idx, LibERealMatrix.Fin' (m ((c.tc : Thread nD τ).loc main_arg2) i))
    ∧ (∀ i : S64x2048.Idx, LibERealMatrix.Fin' (m ((c.tc : Thread nD τ).loc main_arg3) i))
    ∧ (∀ i : S64x2048.Idx, LibERealMatrix.Fin' (m ((c.tc : Thread nD τ).loc main_arg4) i)) := by
  obtain ⟨r0, r1, r2, r3, r4⟩ := real_of_pre m hpre c
  exact ⟨finite_of_real r0, finite_of_real r1, finite_of_real r2, finite_of_real r3, finite_of_real r4⟩

end Cert.KernelIdeal.Hand

end
-- ==== Proof.Algebra.lean ====
/-
  The fused product computes the gated row sum: the algebra, free of any program text.

  `kerRow x W` is the sum over 128 lanes j of (x · column 128 + j of W) · σ(x · column j of W), σ t = 1 / (1 + exp (-t)).
  For W the fused matrix `fusedW` the lanes fall into three ranges:
    lanes 0 … 63     column 128 + j is row j of w_a and column j is row j of w_b: the term is ⟨x, w_a j⟩ · σ⟨x, w_b j⟩;
    lane 64          column 192 is twice the column sums of w_qkv and w_z added and column 64 is zero: the term is
                     ⟨x, 2 (Σ_d w_qkv d + Σ_d w_z d)⟩ · σ 0;
    lanes 65 … 127   both columns are zero: the term is 0 · σ 0 = 0.
  So far nothing is assumed of the entries (`kerRow_fusedW`). When every entry is a real number, σ 0 = 1/2 and the
  scalar product distributes over the column sums, so lane 64 gives Σ_d ⟨x, w_qkv d⟩ + Σ_d ⟨x, w_z d⟩; the 512 rows of
  w_z are the rows 8 j + e of the 64 heads j and 8 positions e, which is how the reference sums them. Hence
  `kerRow x (fusedW …) = refRow x …` for real arrays (`kerRow_fusedW_eq_refRow`) and for extended-real arrays none of
  whose entries is an infinity (`kerRow_fusedW_eq_refRow_of_finite`). The distribution step is done in ℝ and carried
  to the extended reals by the inclusion, which commutes with finite sums and with products.
-/
import proofs.«109285_j59442347376718_2_alg».proof.Proof.Spec
import proofs.«109285_j59442347376718_2_alg».proof.Proof.LibERealMatrix

noncomputable section

namespace Cert.GatedRowSum

open Idealize.ShloMosaic LibERealMatrix

/-- A scalar product of two real rows, computed on the extended reals, is the image of the real scalar product. -/
theorem sum_mul_coe (x w : Fin 2048 → ℝ) :
    (∑ h, (x h : EReal) * (w h : EReal)) = ((∑ h, x h * w h : ℝ) : EReal) := by
  rw [coe_sum]
  exact Finset.sum_congr rfl fun h _ => (EReal.coe_mul _ _).symm

/-- The 128 lanes taken as the first 64, lane 64, and the last 63. -/
theorem sum_lanes {M : Type*} [AddCommMonoid M] (f : Fin 128 → M) :
    ∑ j, f j = (∑ j : Fin 64, f ⟨j.val, by have := j.isLt; omega⟩ + f ⟨64, by omega⟩)
      + ∑ j : Fin 63, f ⟨65 + j.val, by have := j.isLt; omega⟩ := by
  have h1 : ∑ j, f j = ∑ j : Fin 64, f (Fin.castAdd 64 j) + ∑ j : Fin 64, f (Fin.natAdd 64 j) :=
    Fin.sum_univ_add (a := 64) (b := 64) f
  have h2 : ∑ j : Fin 64, f (Fin.natAdd 64 j)
      = f (Fin.natAdd 64 (0 : Fin 64)) + ∑ j : Fin 63, f (Fin.natAdd 64 j.succ) :=
    Fin.sum_univ_succ (n := 63) fun j => f (Fin.natAdd 64 j)
  rw [h1, h2, ← add_assoc]
  refine congrArg₂ (· + ·) (congrArg₂ (· + ·) (Finset.sum_congr rfl fun j _ => congrArg f (Fin.ext rfl))
    (congrArg f (Fin.ext rfl))) (Finset.sum_congr rfl fun j _ => congrArg f (Fin.ext ?_))
  show 64 + (j.val + 1) = 65 + j.val
  omega

/-- The sum over the 512 rows of w_z taken head by head: row `8 j + e` is position `e` of head `j`. -/
theorem sum_heads {M : Type*} [AddCommMonoid M] (f : Fin 512 → M) :
    ∑ j : Fin 64, ∑ e : Fin 8, f ⟨8 * j.val + e.val, by have := j.isLt; have := e.isLt; omega⟩ = ∑ d, f d := by
  refine Eq.symm ((sum_fin_mul 64 8 f).trans ?_)
  refine Finset.sum_congr rfl fun j _ => Finset.sum_congr rfl fun e _ => congrArg f (Fin.ext ?_)
  show ((finProdFinEquiv (j, e) : Fin (64 * 8)) : ℕ) = 8 * j.val + e.val
  rw [finProdFinEquiv_val]
  omega

/-- One lane's term of the kernel's row value. -/
def lane (x : Fin 2048 → EReal) (W : Fin 2048 → Fin 256 → EReal) (j : Fin 128) : EReal :=
  (∑ h, x h * W h ⟨128 + j.val, by have := j.isLt; omega⟩)
    * Ideal.logistic (∑ h, x h * W h ⟨j.val, by have := j.isLt; omega⟩)

/-- The kernel's row value is the sum of its 128 lane terms. -/
theorem kerRow_eq_sum_lane (x : Fin 2048 → EReal) (W : Fin 2048 → Fin 256 → EReal) :
    kerRow x W = ∑ j, lane x W j := rfl

section Columns

variable (wq : Fin 768 → Fin 2048 → EReal) (wz : Fin 512 → Fin 2048 → EReal) (wb wa : Fin 64 → Fin 2048 → EReal)

/-- Columns 0 … 63 of the fused matrix are the rows of w_b. -/
theorem fusedW_col_b (h : Fin 2048) (j : Fin 64) (hj : j.val < 256) :
    fusedW wq wz wb wa h ⟨j.val, hj⟩ = wb j h := by
  unfold fusedW
  exact dif_pos j.isLt

/-- Columns 128 … 191 of the fused matrix are the rows of w_a. -/
theorem fusedW_col_a (h : Fin 2048) (j : Fin 64) (hj : 128 + j.val < 256) :
    fusedW wq wz wb wa h ⟨128 + j.val, hj⟩ = wa j h := by
  have hlt := j.isLt
  unfold fusedW
  rw [dif_neg (show ¬ (128 + j.val < 64) by omega), if_neg (show ¬ (128 + j.val < 128) by omega),
    dif_pos (show 128 + j.val < 192 by omega)]
  exact congrArg (fun k => wa k h) (Fin.ext (by show 128 + j.val - 128 = j.val; omega))

/-- Columns 64 … 127 of the fused matrix are zero. -/
theorem fusedW_col_zero_lo (h : Fin 2048) (n : Fin 256) (h1 : 64 ≤ n.val) (h2 : n.val < 128) :
    fusedW wq wz wb wa h n = 0 := by
  unfold fusedW
  rw [dif_neg (show ¬ (n.val < 64) by omega), if_pos h2]

/-- Columns 193 … 255 of the fused matrix are zero. -/
theorem fusedW_col_zero_hi (h : Fin 2048) (n : Fin 256) (h1 : 193 ≤ n.val) :
    fusedW wq wz wb wa h n = 0 := by
  unfold fusedW
  rw [dif_neg (show ¬ (n.val < 64) by omega), if_neg (show ¬ (n.val < 128) by omega),
    dif_neg (show ¬ (n.val < 192) by omega), if_neg (show ¬ (n.val = 192) by omega)]

/-- Column 192 of the fused matrix is twice the column sums of w_qkv and w_z added. -/
theorem fusedW_col_lin (h : Fin 2048) (hn : 192 < 256) :
    fusedW wq wz wb wa h ⟨192, hn⟩ = 2 * (∑ d, wq d h + ∑ d, wz d h) := by
  unfold fusedW
  rw [dif_neg (show ¬ (192 < 64) by omega), if_neg (show ¬ (192 < 128) by omega),
    dif_neg (show ¬ (192 < 192) by omega), if_pos rfl]

/-- A scalar product with the zero row is zero. -/
theorem sum_mul_zero (x : Fin 2048 → EReal) : (∑ h, x h * (0 : EReal)) = 0 := by
  simp only [mul_zero, Finset.sum_const_zero]

/-- Lanes 0 … 63: the gated terms. -/
theorem lane_gated (x : Fin 2048 → EReal) (j : Fin 64) (hj : j.val < 128) :
    lane x (fusedW wq wz wb wa) ⟨j.val, hj⟩ = dot x (wa j) * Ideal.logistic (dot x (wb j)) := by
  unfold lane dot
  refine congrArg₂ (· * ·) (Finset.sum_congr rfl fun h _ => congrArg (x h * ·) ?_)
    (congrArg Ideal.logistic (Finset.sum_congr rfl fun h _ => congrArg (x h * ·) ?_))
  · exact fusedW_col_a wq wz wb wa h j _
  · exact fusedW_col_b wq wz wb wa h j _

/-- Lane 64: the linear column against the logistic of zero. -/
theorem lane_linear (x : Fin 2048 → EReal) (h64 : 64 < 128) :
    lane x (fusedW wq wz wb wa) ⟨64, h64⟩
      = (∑ h, x h * (2 * (∑ d, wq d h + ∑ d, wz d h))) * Ideal.logistic 0 := by
  unfold lane
  refine congrArg₂ (· * ·) (Finset.sum_congr rfl fun h _ => congrArg (x h * ·) ?_) (congrArg Ideal.logistic ?_)
  · exact fusedW_col_lin wq wz wb wa h _
  · refine Eq.trans (Finset.sum_congr rfl fun h _ => congrArg (x h * ·) ?_) (sum_mul_zero x)
    exact fusedW_col_zero_lo wq wz wb wa h _ (le_refl 64) (by show 64 < 128; omega)

/-- Lanes 65 … 127: zero against the logistic of zero. -/
theorem lane_zero (x : Fin 2048 → EReal) (j : Fin 63) (hj : 65 + j.val < 128) :
    lane x (fusedW wq wz wb wa) ⟨65 + j.val, hj⟩ = 0 := by
  have hlt := j.isLt
  unfold lane
  have h0 : (∑ h, x h * fusedW wq wz wb wa h ⟨128 + (65 + j.val), by omega⟩) = 0 := by
    refine Eq.trans (Finset.sum_congr rfl fun h _ => congrArg (x h * ·) ?_) (sum_mul_zero x)
    exact fusedW_col_zero_hi wq wz wb wa h _ (by show 193 ≤ 128 + (65 + j.val); omega)
  exact (congrArg (· * _) h0).trans (zero_mul _)

/-- The kernel's row value on the fused matrix, for ANY extended-real arrays: the gated terms plus the linear column
    against σ 0. Only the zero columns are used here (0 · t = 0 holds at the infinities too). -/
theorem kerRow_fusedW (x : Fin 2048 → EReal) :
    kerRow x (fusedW wq wz wb wa)
      = ∑ j, dot x (wa j) * Ideal.logistic (dot x (wb j))
        + (∑ h, x h * (2 * (∑ d, wq d h + ∑ d, wz d h))) * Ideal.logistic 0 := by
  rw [kerRow_eq_sum_lane, sum_lanes]
  refine (congrArg₂ (· + ·)
    (congrArg₂ (· + ·) (Finset.sum_congr rfl fun j _ => lane_gated wq wz wb wa x j _) (lane_linear wq wz wb wa x _))
    (Finset.sum_congr rfl fun j _ => lane_zero wq wz wb wa x j _)).trans ?_
  rw [Finset.sum_const_zero, add_zero]

/-- The reference's row value with the rows of w_z summed in one go instead of head by head. -/
theorem refRow_eq (x : Fin 2048 → EReal) :
    refRow x wq wz wb wa
      = (∑ d, dot x (wq d) + ∑ d, dot x (wz d)) + ∑ j, dot x (wa j) * Ideal.logistic (dot x (wb j)) := by
  unfold refRow
  exact congrArg (fun t => (∑ d, dot x (wq d) + t) + ∑ j, dot x (wa j) * Ideal.logistic (dot x (wb j)))
    (sum_heads fun d => dot x (wz d))

end Columns

/-! The linear part, over the reals. -/

/-- Summing the scalar products of x with the rows of a matrix is the scalar product of x with the column sums. -/
theorem sum_rows_real {n : ℕ} (x : Fin 2048 → ℝ) (w : Fin n → Fin 2048 → ℝ) :
    ∑ d, ∑ h, x h * w d h = ∑ h, x h * ∑ d, w d h := by
  rw [Finset.sum_comm]
  exact Finset.sum_congr rfl fun h _ => (Finset.mul_sum _ _ _).symm

/-- Twice the linear part times 1 / (1 + e⁰) is the linear part. -/
theorem linear_real (x : Fin 2048 → ℝ) (wq : Fin 768 → Fin 2048 → ℝ) (wz : Fin 512 → Fin 2048 → ℝ) :
    (∑ h, x h * (2 * (∑ d, wq d h + ∑ d, wz d h))) * (1 + Real.exp (-0))⁻¹
      = ∑ d, ∑ h, x h * wq d h + ∑ d, ∑ h, x h * wz d h := by
  rw [sum_rows_real x wq, sum_rows_real x wz, ← Finset.sum_add_distrib, neg_zero, Real.exp_zero, Finset.sum_mul]
  refine Finset.sum_congr rfl fun h _ => ?_
  ring

/-! The same on the extended reals, for arrays of reals. -/

/-- The scalar product of two real rows is the image of the real scalar product. -/
theorem dot_coe (x w : Fin 2048 → ℝ) :
    dot (fun h => (x h : EReal)) (fun h => (w h : EReal)) = ((∑ h, x h * w h : ℝ) : EReal) :=
  sum_mul_coe x w

/-- The scalar products of a real row with the rows of a real matrix, summed: the image of the real double sum. -/
theorem sum_dot_coe {n : ℕ} (x : Fin 2048 → ℝ) (w : Fin n → Fin 2048 → ℝ) :
    ∑ d, dot (fun h => (x h : EReal)) (fun h => (w d h : EReal)) = ((∑ d, ∑ h, x h * w d h : ℝ) : EReal) := by
  rw [coe_sum]
  exact Finset.sum_congr rfl fun d _ => dot_coe x (w d)

/-- Lane 64's value for real arrays: the linear column against σ 0 = 1/2 gives the two linear projections summed out. -/
theorem linear_part (x : Fin 2048 → ℝ) (wq : Fin 768 → Fin 2048 → ℝ) (wz : Fin 512 → Fin 2048 → ℝ) :
    (∑ h, (x h : EReal) * (2 * (∑ d, (wq d h : EReal) + ∑ d, (wz d h : EReal)))) * Ideal.logistic 0
      = ∑ d, dot (fun h => (x h : EReal)) (fun h => (wq d h : EReal))
        + ∑ d, dot (fun h => (x h : EReal)) (fun h => (wz d h : EReal)) := by
  have hcol : ∀ h, (x h : EReal) * (2 * (∑ d, (wq d h : EReal) + ∑ d, (wz d h : EReal)))
      = ((x h * (2 * (∑ d, wq d h + ∑ d, wz d h)) : ℝ) : EReal) := by
    intro h
    rw [EReal.coe_mul, EReal.coe_mul, EReal.coe_add, coe_sum, coe_sum]
    rfl
  have hlog : Ideal.logistic 0 = (((1 + Real.exp (-0))⁻¹ : ℝ) : EReal) := by
    rw [← EReal.coe_zero]
    exact Ideal.logistic_coe 0
  rw [Finset.sum_congr rfl fun h _ => hcol h, ← coe_sum, hlog, ← EReal.coe_mul, linear_real, EReal.coe_add,
    sum_dot_coe, sum_dot_coe]

/-- For arrays of real numbers the kernel's row value on the fused matrix is the reference's row value. -/
theorem kerRow_fusedW_eq_refRow (x : Fin 2048 → ℝ) (wq : Fin 768 → Fin 2048 → ℝ) (wz : Fin 512 → Fin 2048 → ℝ)
    (wb wa : Fin 64 → Fin 2048 → ℝ) :
    kerRow (fun h => (x h : EReal)) (fusedW (fun d h => (wq d h : EReal)) (fun d h => (wz d h : EReal))
        (fun j h => (wb j h : EReal)) (fun j h => (wa j h : EReal)))
      = refRow (fun h => (x h : EReal)) (fun d h => (wq d h : EReal)) (fun d h => (wz d h : EReal))
        (fun j h => (wb j h : EReal)) (fun j h => (wa j h : EReal)) := by
  refine (kerRow_fusedW _ _ _ _ _).trans ?_
  refine Eq.trans ?_ (refRow_eq _ _ _ _ _).symm
  refine (add_comm _ _).trans ?_
  exact congrFun (congrArg HAdd.hAdd (linear_part x wq wz)) _

/-- A matrix of finite extended reals is the image of a matrix of reals. -/
theorem exists_real_matrix {n : ℕ} (w : Fin n → Fin 2048 → EReal) (hw : ∀ d h, Fin' (w d h)) :
    ∃ g : Fin n → Fin 2048 → ℝ, w = fun d h => (g d h : EReal) :=
  ⟨fun d h => (w d h).toReal, funext fun d => funext fun h => (EReal.coe_toReal (hw d h).1 (hw d h).2).symm⟩

/-- For extended-real arrays all of whose entries are finite (neither infinity) the kernel's row value on the fused
    matrix is the reference's row value: such arrays are the images of real arrays. -/
theorem kerRow_fusedW_eq_refRow_of_finite (x : Fin 2048 → EReal) (wq : Fin 768 → Fin 2048 → EReal)
    (wz : Fin 512 → Fin 2048 → EReal) (wb wa : Fin 64 → Fin 2048 → EReal)
    (hx : ∀ h, Fin' (x h)) (hq : ∀ d h, Fin' (wq d h)) (hz : ∀ d h, Fin' (wz d h))
    (hb : ∀ j h, Fin' (wb j h)) (ha : ∀ j h, Fin' (wa j h)) :
    kerRow x (fusedW wq wz wb wa) = refRow x wq wz wb wa := by
  obtain ⟨x', hx'⟩ := exists_real_family x hx
  obtain rfl : x = fun h => (x' h : EReal) := funext hx'
  obtain ⟨wq', rfl⟩ := exists_real_matrix wq hq
  obtain ⟨wz', rfl⟩ := exists_real_matrix wz hz
  obtain ⟨wb', rfl⟩ := exists_real_matrix wb hb
  obtain ⟨wa', rfl⟩ := exists_real_matrix wa ha
  exact kerRow_fusedW_eq_refRow x' wq' wz' wb' wa'

end Cert.GatedRowSum

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.RefValue.lean ====
/-
  The reference's result, entry by entry, is the gated row sum of the specification.

  The reference forms four projections of every row x = X[b, s, ·] (2048 entries): onto the 768 rows of w_qkv, the 512
  rows of w_z, the 64 rows of w_b and the 64 rows of w_a. Each projection entry is a scalar product of x with one
  weight row. The w_z projection is re-laid as 64 heads of 8 positions, entry (j, e) being projection entry 8 j + e.
  The w_b projection goes through t ↦ 1 / (1 + exp (-t)), spelled with a negation, an exponential, an addition of the
  constant 1 and a quotient of the constant 1: on the extended reals that is the logistic function of the specification.
  The result entry (b, s, 0) is
      (the sum of the 768 w_qkv projections + the sum over heads of the sum over positions of the w_z projections)
        + the sum over the 64 heads of (w_a projection) · logistic (w_b projection),
  each sum starting from the constant 0. Nothing here needs finiteness: every step is either the definition of an
  operation at an index or 0 + y = y.

  The lemmas below read the stages of the reference one at a time at explicit coordinates, innermost first, and
  result_apply / result_eq assemble them.
-/
import proofs.«109285_j59442347376718_2_alg».proof.Proof.Gen.ReferenceIdeal.Read
import proofs.«109285_j59442347376718_2_alg».proof.Proof.Spec
import proofs.«109285_j59442347376718_2_alg».proof.Proof.LibReciprocalScale

noncomputable section

namespace Cert.ReferenceIdeal.RefValue

open Idealize.ShloMosaic Idealize.ShloMosaic.ValueIdx Cert.ReferenceIdeal Cert.ReferenceIdeal.Gen Cert.GatedRowSum

/-! ## The four projections: an entry is a scalar product of the row with a weight row -/

/-- Entry (b, s, d) of x · w_qkvᵀ is ⟨X[b, s, ·], w_qkv[d, ·]⟩. -/
theorem proj_qkv_apply (X : FVec Ideal S4x8192x2048 .f32) (Wq : FVec Ideal S768x2048 .f32)
    (b : Fin 4) (s : Fin 8192) (d : Fin 768) :
    Read.val_main_v0 (F := Ideal) X Wq (ix3 b s d)
      = dot (fun h => X (ix3 b s h)) (fun h => Wq (ix2 d h)) := by
  rw [Read.val_main_v0_apply]
  unfold dot
  refine Finset.sum_congr rfl fun k _ => ?_
  have el : Read.lidx_main_v0 (ix3 b s d) k = ix3 b s k := funext fun a => Fin.ext (by
    match a with | ⟨0, _⟩ => rfl | ⟨1, _⟩ => rfl | ⟨2, _⟩ => rfl)
  have er : Read.ridx_main_v0 (ix3 b s d) k = ix2 d k := funext fun a => Fin.ext (by
    match a with | ⟨0, _⟩ => rfl | ⟨1, _⟩ => rfl)
  rw [el, er]

/-- Entry (b, s, n) of x · w_zᵀ is ⟨X[b, s, ·], w_z[n, ·]⟩. -/
theorem proj_z_apply (X : FVec Ideal S4x8192x2048 .f32) (Wz : FVec Ideal S512x2048 .f32)
    (b : Fin 4) (s : Fin 8192) (n : Fin 512) :
    Read.val_main_v1 (F := Ideal) X Wz (ix3 b s n)
      = dot (fun h => X (ix3 b s h)) (fun h => Wz (ix2 n h)) := by
  rw [Read.val_main_v1_apply]
  unfold dot
  refine Finset.sum_congr rfl fun k _ => ?_
  have el : Read.lidx_main_v1 (ix3 b s n) k = ix3 b s k := funext fun a => Fin.ext (by
    match a with | ⟨0, _⟩ => rfl | ⟨1, _⟩ => rfl | ⟨2, _⟩ => rfl)
  have er : Read.ridx_main_v1 (ix3 b s n) k = ix2 n k := funext fun a => Fin.ext (by
    match a with | ⟨0, _⟩ => rfl | ⟨1, _⟩ => rfl)
  rw [el, er]

/-- Entry (b, s, j) of x · w_bᵀ is ⟨X[b, s, ·], w_b[j, ·]⟩. -/
theorem proj_b_apply (X : FVec Ideal S4x8192x2048 .f32) (Wb : FVec Ideal S64x2048 .f32)
    (b : Fin 4) (s : Fin 8192) (j : Fin 64) :
    Read.val_main_v3 (F := Ideal) X Wb (ix3 b s j)
      = dot (fun h => X (ix3 b s h)) (fun h => Wb (ix2 j h)) := by
  rw [Read.val_main_v3_apply]
  unfold dot
  refine Finset.sum_congr rfl fun k _ => ?_
  have el : Read.lidx_main_v3 (ix3 b s j) k = ix3 b s k := funext fun a => Fin.ext (by
    match a with | ⟨0, _⟩ => rfl | ⟨1, _⟩ => rfl | ⟨2, _⟩ => rfl)
  have er : Read.ridx_main_v3 (ix3 b s j) k = ix2 j k := funext fun a => Fin.ext (by
    match a with | ⟨0, _⟩ => rfl | ⟨1, _⟩ => rfl)
  rw [el, er]

/-- Entry (b, s, j) of x · w_aᵀ is ⟨X[b, s, ·], w_a[j, ·]⟩. -/
theorem proj_a_apply (X : FVec Ideal S4x8192x2048 .f32) (Wa : FVec Ideal S64x2048 .f32)
    (b : Fin 4) (s : Fin 8192) (j : Fin 64) :
    Read.val_main_v10 (F := Ideal) X Wa (ix3 b s j)
      = dot (fun h => X (ix3 b s h)) (fun h => Wa (ix2 j h)) := by
  rw [Read.val_main_v10_apply]
  unfold dot
  refine Finset.sum_congr rfl fun k _ => ?_
  have el : Read.lidx_main_v10 (ix3 b s j) k = ix3 b s k := funext fun a => Fin.ext (by
    match a with | ⟨0, _⟩ => rfl | ⟨1, _⟩ => rfl | ⟨2, _⟩ => rfl)
  have er : Read.ridx_main_v10 (ix3 b s j) k = ix2 j k := funext fun a => Fin.ext (by
    match a with | ⟨0, _⟩ => rfl | ⟨1, _⟩ => rfl)
  rw [el, er]

/-! ## The w_z projection as heads and positions -/

/-- Row-major: position e of head j of the 64 × 8 layout of 512 entries is entry 8 j + e. -/
theorem heads_apply (X : FVec Ideal S4x8192x2048 .f32) (Wz : FVec Ideal S512x2048 .f32)
    (b : Fin 4) (s : Fin 8192) (j : Fin 64) (e : Fin 8) :
    Read.val_main_v2 (F := Ideal) X Wz (ix4 b s j e)
      = dot (fun h => X (ix3 b s h))
          (fun h => Wz (ix2 (⟨8 * j.val + e.val, by have := j.isLt; have := e.isLt; omega⟩ : Fin 512) h)) := by
  rw [Read.val_main_v2_apply]
  have ei : Read.idx_main_v2 (ix4 b s j e)
      = ix3 b s (⟨8 * j.val + e.val, by have := j.isLt; have := e.isLt; omega⟩ : Fin 512) :=
    funext fun a => Fin.ext (by
      have hb := b.isLt; have hs := s.isLt; have hj := j.isLt; have he := e.isLt
      match a with
      | ⟨0, _⟩ =>
        show (((b.val * 8192 + s.val) * 64 + j.val) * 8 + e.val) / 4194304 = b.val
        omega
      | ⟨1, _⟩ =>
        show (((b.val * 8192 + s.val) * 64 + j.val) * 8 + e.val) / 512 % 8192 = s.val
        omega
      | ⟨2, _⟩ =>
        show (((b.val * 8192 + s.val) * 64 + j.val) * 8 + e.val) % 512 = 8 * j.val + e.val
        omega)
  rw [ei]
  exact proj_z_apply X Wz b s _

/-! ## The gate -/

/-- 1 / (1 + exp (-t)) spelled with the constant 1 twice is the logistic function of the w_b projection. -/
theorem gate_apply (X : FVec Ideal S4x8192x2048 .f32) (Wb : FVec Ideal S64x2048 .f32)
    (b : Fin 4) (s : Fin 8192) (j : Fin 64) :
    Read.val_main_v9 (F := Ideal) X Wb (ix3 b s j)
      = Ideal.logistic (dot (fun h => X (ix3 b s h)) (fun h => Wb (ix2 j h))) := by
  rw [Read.val_main_v9_apply, Read.val_main_v8_apply, Read.val_main_cst_0_apply, Read.val_main_v7_apply,
    Read.val_main_v6_apply, Read.val_main_cst_apply, Read.val_main_v5_apply, Read.val_main_v4_apply, proj_b_apply]
  simp only [Ideal.hostDivf_def, Ideal.addf_def, Ideal.hostUnary_exp_def, Ideal.hostNegf_def, Ideal.negf_def,
    Ideal.ofBits_def, LibReciprocalScale.ofBits_one_f32]
  rfl

/-- The gated entry (b, s, j): the w_a projection times the gate. -/
theorem gated_apply (X : FVec Ideal S4x8192x2048 .f32) (Wb Wa : FVec Ideal S64x2048 .f32)
    (b : Fin 4) (s : Fin 8192) (j : Fin 64) :
    Read.val_main_v11 (F := Ideal) X Wb Wa (ix3 b s j)
      = dot (fun h => X (ix3 b s h)) (fun h => Wa (ix2 j h))
          * Ideal.logistic (dot (fun h => X (ix3 b s h)) (fun h => Wb (ix2 j h))) := by
  rw [Read.val_main_v11_apply, proj_a_apply, gate_apply]
  rfl

/-! ## The three sums, each from the constant 0 -/

/-- The w_qkv projections summed over the 768 rows. -/
theorem sum_qkv_apply (X : FVec Ideal S4x8192x2048 .f32) (Wq : FVec Ideal S768x2048 .f32)
    (b : Fin 4) (s : Fin 8192) :
    Read.val_main_v12 (F := Ideal) X Wq (ix2 b s)
      = ∑ d : Fin 768, dot (fun h => X (ix3 b s h)) (fun h => Wq (ix2 d h)) := by
  rw [Read.val_main_v12_apply, Read.val_main_cst_1_apply, Ideal.ofBits_def, Ideal.ofBits_zero_f32, zero_add]
  refine Finset.sum_congr rfl fun d _ => ?_
  have ei : Read.idx_main_v12 (ix2 b s) d = ix3 b s d := funext fun a => Fin.ext (by
    match a with | ⟨0, _⟩ => rfl | ⟨1, _⟩ => rfl | ⟨2, _⟩ => rfl)
  rw [ei]
  exact proj_qkv_apply X Wq b s d

/-- The w_z projections of one head summed over its 8 positions. -/
theorem sum_pos_apply (X : FVec Ideal S4x8192x2048 .f32) (Wz : FVec Ideal S512x2048 .f32)
    (b : Fin 4) (s : Fin 8192) (j : Fin 64) :
    Read.val_main_v14 (F := Ideal) X Wz (ix3 b s j)
      = ∑ e : Fin 8, dot (fun h => X (ix3 b s h))
          (fun h => Wz (ix2 (⟨8 * j.val + e.val, by have := j.isLt; have := e.isLt; omega⟩ : Fin 512) h)) := by
  rw [Read.val_main_v14_apply, Read.val_main_cst_2_apply, Ideal.ofBits_def, Ideal.ofBits_zero_f32, zero_add]
  refine Finset.sum_congr rfl fun e _ => ?_
  have ei : Read.idx_main_v14 (ix3 b s j) e = ix4 b s j e := funext fun a => Fin.ext (by
    match a with | ⟨0, _⟩ => rfl | ⟨1, _⟩ => rfl | ⟨2, _⟩ => rfl | ⟨3, _⟩ => rfl)
  rw [ei]
  exact heads_apply X Wz b s j e

/-- The head sums summed over the 64 heads. -/
theorem sum_heads_apply (X : FVec Ideal S4x8192x2048 .f32) (Wz : FVec Ideal S512x2048 .f32)
    (b : Fin 4) (s : Fin 8192) :
    Read.val_main_v15 (F := Ideal) X Wz (ix2 b s)
      = ∑ j : Fin 64, ∑ e : Fin 8, dot (fun h => X (ix3 b s h))
          (fun h => Wz (ix2 (⟨8 * j.val + e.val, by have := j.isLt; have := e.isLt; omega⟩ : Fin 512) h)) := by
  rw [Read.val_main_v15_apply, Read.val_main_cst_3_apply, Ideal.ofBits_def, Ideal.ofBits_zero_f32, zero_add]
  refine Finset.sum_congr rfl fun j _ => ?_
  have ei : Read.idx_main_v15 (ix2 b s) j = ix3 b s j := funext fun a => Fin.ext (by
    match a with | ⟨0, _⟩ => rfl | ⟨1, _⟩ => rfl | ⟨2, _⟩ => rfl)
  rw [ei]
  exact sum_pos_apply X Wz b s j

/-- The gated entries summed over the 64 heads. -/
theorem sum_gated_apply (X : FVec Ideal S4x8192x2048 .f32) (Wb Wa : FVec Ideal S64x2048 .f32)
    (b : Fin 4) (s : Fin 8192) :
    Read.val_main_v18 (F := Ideal) X Wb Wa (ix2 b s)
      = ∑ j : Fin 64, dot (fun h => X (ix3 b s h)) (fun h => Wa (ix2 j h))
          * Ideal.logistic (dot (fun h => X (ix3 b s h)) (fun h => Wb (ix2 j h))) := by
  rw [Read.val_main_v18_apply, Read.val_main_cst_4_apply, Ideal.ofBits_def, Ideal.ofBits_zero_f32, zero_add]
  refine Finset.sum_congr rfl fun j _ => ?_
  have ei : Read.idx_main_v18 (ix2 b s) j = ix3 b s j := funext fun a => Fin.ext (by
    match a with | ⟨0, _⟩ => rfl | ⟨1, _⟩ => rfl | ⟨2, _⟩ => rfl)
  rw [ei]
  exact gated_apply X Wb Wa b s j

/-! ## The result -/

/-- A [4, 8192] array kept as a [4, 8192, 1] column is read at its first two coordinates. -/
theorem column_idx (b : Fin 4) (s : Fin 8192) (z : Fin 1) : Read.idx_main_v13 (ix3 b s z) = ix2 b s :=
  funext fun a => Fin.ext (by match a with | ⟨0, _⟩ => rfl | ⟨1, _⟩ => rfl)

/-- Entry (b, s, z) of the reference's result is the gated row sum of row X[b, s, ·]. -/
theorem result_apply (X : FVec Ideal S4x8192x2048 .f32) (Wq : FVec Ideal S768x2048 .f32)
    (Wz : FVec Ideal S512x2048 .f32) (Wb Wa : FVec Ideal S64x2048 .f32) (b : Fin 4) (s : Fin 8192) (z : Fin 1) :
    Read.val_main_v20 (F := Ideal) X Wq Wz Wb Wa (ix3 b s z)
      = refRow (fun h => X (ix3 b s h)) (fun d h => Wq (ix2 d h)) (fun d h => Wz (ix2 d h))
          (fun j h => Wb (ix2 j h)) (fun j h => Wa (ix2 j h)) := by
  rw [Read.val_main_v20_apply, Read.val_main_v17_apply, Read.val_main_v13_apply, Read.val_main_v16_apply,
    Read.val_main_v19_apply]
  have e13 : Read.idx_main_v13 (ix3 b s z) = ix2 b s := column_idx b s z
  have e16 : Read.idx_main_v16 (ix3 b s z) = ix2 b s := column_idx b s z
  have e19 : Read.idx_main_v19 (ix3 b s z) = ix2 b s := column_idx b s z
  rw [e13, e16, e19, sum_qkv_apply, sum_heads_apply, sum_gated_apply]
  rfl

/-- The reference's result as one function of the five argument arrays. -/
theorem result_eq (X : FVec Ideal S4x8192x2048 .f32) (Wq : FVec Ideal S768x2048 .f32)
    (Wz : FVec Ideal S512x2048 .f32) (Wb Wa : FVec Ideal S64x2048 .f32) :
    Read.val_main_v20 (F := Ideal) X Wq Wz Wb Wa
      = fun i => refRow (fun h => X (ix3 (i 0) (i 1) h)) (fun d h => Wq (ix2 d h)) (fun d h => Wz (ix2 d h))
          (fun j h => Wb (ix2 j h)) (fun j h => Wa (ix2 j h)) := by
  funext i
  obtain ⟨b, s, z, rfl⟩ : ∃ (b : Fin 4) (s : Fin 8192) (z : Fin 1), i = ix3 b s z := ⟨i 0, i 1, i 2, eq_ix3 i⟩
  exact result_apply X Wq Wz Wb Wa b s z

/-- The same for the composed term that the reference's run states for its result buffer (that term is the last
    stage by definition). -/
theorem run_result_eq (X : FVec Ideal S4x8192x2048 .f32) (Wq : FVec Ideal S768x2048 .f32)
    (Wz : FVec Ideal S512x2048 .f32) (Wb Wa : FVec Ideal S64x2048 .f32) :
    (addf (addf (broadcastInDim S4x8192x1 ![0, 1] bcast_S4x8192_S4x8192x1_0_1 (Host.reduceAdd (Host.dotGeneral dot_S4x8192x2048_S768x2048_S4x8192x768_2_1_01_0_n_n none (X) (Wq)) (constant S_ .f32 0x00000000#32) reducesTo_S4x8192x768_S4x8192_d2 h_S_)) (broadcastInDim S4x8192x1 ![0, 1] bcast_S4x8192_S4x8192x1_0_1 (Host.reduceAdd (Host.reduceAdd (shapeCast _ (Host.dotGeneral dot_S4x8192x2048_S512x2048_S4x8192x512_2_1_01_0_n_n none (X) (Wz)) shapeCasts_S4x8192x512_S4x8192x64x8) (constant S_ .f32 0x00000000#32) reducesTo_S4x8192x64x8_S4x8192x64_d3 h_S_) (constant S_ .f32 0x00000000#32) reducesTo_S4x8192x64_S4x8192_d2 h_S_))) (broadcastInDim S4x8192x1 ![0, 1] bcast_S4x8192_S4x8192x1_0_1 (Host.reduceAdd (mulf (Host.dotGeneral dot_S4x8192x2048_S64x2048_S4x8192x64_2_1_01_0_n_n none (X) (Wa)) (Host.divf (broadcastInDim S4x8192x64 ![] bcast_S_S4x8192x64 (constant S_ .f32 0x3F800000#32)) (addf (broadcastInDim S4x8192x64 ![] bcast_S_S4x8192x64 (constant S_ .f32 0x3F800000#32)) (Host.exp (Host.negf (Host.dotGeneral dot_S4x8192x2048_S64x2048_S4x8192x64_2_1_01_0_n_n none (X) (Wb))))))) (constant S_ .f32 0x00000000#32) reducesTo_S4x8192x64_S4x8192_d2 h_S_))
        : FVec Ideal S4x8192x1 .f32)
      = fun i => refRow (fun h => X (ix3 (i 0) (i 1) h)) (fun d h => Wq (ix2 d h)) (fun d h => Wz (ix2 d h))
          (fun j h => Wb (ix2 j h)) (fun j h => Wa (ix2 j h)) :=
  (Read.val_main_v20_eq (F := Ideal) X Wq Wz Wb Wa).trans (result_eq X Wq Wz Wb Wa)

end Cert.ReferenceIdeal.RefValue

end
-- ==== Proof.lean ====
/-
  The certificate of the gated row sum: a fused-weight kernel against its plain reference.

  For x of shape [4, 8192, 2048] and weights w_qkv [768, 2048], w_z [512, 2048], w_b, w_a [64, 2048] the reference
  returns, for each row x[b, s, ·], the sum of its 768 projections onto the rows of w_qkv, plus the sum of its 512
  projections onto the rows of w_z (taken as 64 heads of 8), plus the sum over the 64 heads j of
  ⟨x, w_a j⟩ · σ(⟨x, w_b j⟩), σ t = 1 / (1 + exp (-t)).

  The kernel first builds, with host operations, one fused 2048 × 256 weight: columns 0 … 63 the rows of w_b, 64 … 127
  zero, 128 … 191 the rows of w_a, column 192 twice the column sums of w_qkv and w_z added, 193 … 255 zero. One
  pipelined region over a 4 × 4 grid then hands the body, at point (i, j), rows 2048 j … 2048 j + 2047 of batch i and
  the whole fused weight; the body multiplies them (in eight column chunks of 256, accumulated), gates columns
  128 … 255 by σ of columns 0 … 127, and sums the 128 lanes of each row.

  Why the two agree at exact arithmetic. Lanes 0 … 63 are the gated terms. Lane 64 is ⟨x, 2 (Σ_d w_qkv d + Σ_d w_z d)⟩ · σ 0,
  and σ 0 = 1/2, so it is the two linear projections summed out — once the scalar product may be moved across the
  column sums, which needs every entry to be a real number: that is what the precondition (all inputs finite) gives.
  Lanes 65 … 127 are 0 · σ 0 = 0. Narrowing to sixteen bits is the identity at exact arithmetic, and a sum taken in
  eight blocks is the sum.

  The parts: the frames of the two kernel programs (FrameB, FrameI: one symbolic run of the body, the launch of one
  region after a stretch of host operations); the idealized kernel's result array as one function of x and the fused
  weight (BlockI, PayloadI, ValueI); the fused weight read at an entry (HostPrefixI); finiteness from the precondition
  (FiniteI); the algebra (Spec, Algebra); the reference's result read at an entry (RefValue, over the generated run of
  the reference). The idealization rewrote nothing, so its ledger is empty.
-/
import proofs.«109285_j59442347376718_2_alg».proof.Defs
import proofs.«109285_j59442347376718_2_alg».proof.Proof.Gen.Kernel
import proofs.«109285_j59442347376718_2_alg».proof.Proof.Gen.KernelIdeal
import proofs.«109285_j59442347376718_2_alg».proof.Proof.Gen.ReferenceIdeal
import proofs.«109285_j59442347376718_2_alg».proof.Proof.Gen.Pre_finite_inputs
import proofs.«109285_j59442347376718_2_alg».proof.Proof.Gen.ReferenceIdeal.Run
import proofs.«109285_j59442347376718_2_alg».proof.Proof.FrameB
import proofs.«109285_j59442347376718_2_alg».proof.Proof.FrameI
import proofs.«109285_j59442347376718_2_alg».proof.Proof.ValueI
import proofs.«109285_j59442347376718_2_alg».proof.Proof.HostPrefixI
import proofs.«109285_j59442347376718_2_alg».proof.Proof.FiniteI
import proofs.«109285_j59442347376718_2_alg».proof.Proof.Algebra
import proofs.«109285_j59442347376718_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.GatedRowSum

/-- The word-level kernel runs to the end, faults nowhere, and leaves its arguments as they were. -/
theorem frame_k : Cert.frame_Kernel (hKernel := Cert.Kernel.Gen.facts) (hPre_finite_inputs := Cert.Pre_finite_inputs.Gen.facts) :=
  fun m ρ _ => Cert.Kernel.Hand.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run, with the result forgotten. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At exact arithmetic, from memories agreeing on the five arguments, both programs end with the result array
    whose entry (b, s, 0) is `refRow` of row (b, s) of x: the reference by its stages read at that entry, the kernel
    because its result is `kerRow` of that row against the fused weight, the fused weight is `fusedW` of the four
    weight arrays, and `kerRow x (fusedW …) = refRow x …` when every entry is a real number. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => fun i => refRow (fun h => (m ((c.tc : Thread Cert.KernelIdeal.nD Cert.KernelIdeal.τ).loc Cert.KernelIdeal.main_arg0) : Cert.KernelIdeal.S4x8192x2048.Idx → EReal) (ix3 (i 0) (i 1) h))
      (fun d h => (m ((c.tc : Thread Cert.KernelIdeal.nD Cert.KernelIdeal.τ).loc Cert.KernelIdeal.main_arg1) : Cert.KernelIdeal.S768x2048.Idx → EReal) (ix2 d h)) (fun d h => (m ((c.tc : Thread Cert.KernelIdeal.nD Cert.KernelIdeal.τ).loc Cert.KernelIdeal.main_arg2) : Cert.KernelIdeal.S512x2048.Idx → EReal) (ix2 d h))
      (fun j h => (m ((c.tc : Thread Cert.KernelIdeal.nD Cert.KernelIdeal.τ).loc Cert.KernelIdeal.main_arg3) : Cert.KernelIdeal.S64x2048.Idx → EReal) (ix2 j h)) (fun j h => (m ((c.tc : Thread Cert.KernelIdeal.nD Cert.KernelIdeal.τ).loc Cert.KernelIdeal.main_arg4) : Cert.KernelIdeal.S64x2048.Idx → EReal) (ix2 j h)), ?_, ?_⟩
  · refine (θ_run Cert.KernelIdeal.defs _ _).mono (fun r h c => ⟨(h c).1.trans ?_, (h c).2⟩) (Cert.KernelIdeal.Hand.run_ker m ρ)
    funext i
    unfold Cert.KernelIdeal.Hand.gatedOf
    rw [show (fun (h : Fin 2048) (n : Fin 256) => (Cert.KernelIdeal.Hand.V m c Cert.KernelIdeal.main_v11 : Cert.KernelIdeal.S2048x256.Idx → EReal) (ix2 h n))
        = fusedW (fun d k => (m ((c.tc : Thread Cert.KernelIdeal.nD Cert.KernelIdeal.τ).loc Cert.KernelIdeal.main_arg1) : Cert.KernelIdeal.S768x2048.Idx → EReal) (ix2 d k)) (fun d k => (m ((c.tc : Thread Cert.KernelIdeal.nD Cert.KernelIdeal.τ).loc Cert.KernelIdeal.main_arg2) : Cert.KernelIdeal.S512x2048.Idx → EReal) (ix2 d k))
            (fun j k => (m ((c.tc : Thread Cert.KernelIdeal.nD Cert.KernelIdeal.τ).loc Cert.KernelIdeal.main_arg3) : Cert.KernelIdeal.S64x2048.Idx → EReal) (ix2 j k)) (fun j k => (m ((c.tc : Thread Cert.KernelIdeal.nD Cert.KernelIdeal.τ).loc Cert.KernelIdeal.main_arg4) : Cert.KernelIdeal.S64x2048.Idx → EReal) (ix2 j k))
        from funext fun h => funext fun n => Cert.KernelIdeal.Hand.wcat_apply m c h n]
    obtain ⟨f0, f1, f2, f3, f4⟩ := Cert.KernelIdeal.Hand.finite_of_pre m hpre c
    exact kerRow_fusedW_eq_refRow_of_finite _ _ _ _ _ (fun h => f0 _) (fun d h => f1 _) (fun d h => f2 _) (fun j h => f3 _) (fun j h => f4 _)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.run_result_eq, (hagree c).1, (hagree c).2.1, (hagree c).2.2.1, (hagree c).2.2.2.1,
      (hagree c).2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
